-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_arg4 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S10000x128 .f32) (main_arg1 : FVec F S10000x10000 .f32) (main_arg2 : FVec F S128x128 .f32) (main_arg3 : FVec F S128 .f32) (main_arg4 : FVec F S_ .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩
abbrev S1x1 : Shape := ⟨2, ![1, 1]⟩
abbrev S400x10000 : Shape := ⟨2, ![400, 10000]⟩
abbrev S400x128 : Shape := ⟨2, ![400, 128]⟩

abbrev nBuf : Space → Nat
  | .hbm => 8
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S1x128, .f32⟩
  | .hbm, ⟨6, _⟩ => ⟨S1x1, .f32⟩
  | .hbm, ⟨7, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S1x1, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | .local _ .vmem, ⟨9, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c400_i32 : BitVec 32 := 400#32
  let v12 : BitVec 32 := Scalar.muli arg0 c400_i32
  let v13 : Index := Scalar.indexCast v12
  let c0_6 : Index := 0#32
  ![v13.toNat, 0]
def k0_cond3 (i : grid0.Coords) : BitVec 1 :=
  let arg0 : BitVec 32 := BitVec.ofNat 32 (i 0).val
  let c24_i32 : BitVec 32 := 24#32
  let v6 : BitVec 1 := Scalar.cmpi .sge arg0 c24_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let c25_i32 : BitVec 32 := 25#32
  let v0 : BitVec 1 := Scalar.cmpi .slt arg0 c25_i32
  let c48_i32 : BitVec 32 := 48#32
  let v1 : BitVec 32 := Scalar.subi c48_i32 arg0
  let v2 : BitVec 32 := Scalar.select v0 arg0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c25_i32 : BitVec 32 := 25#32
  let v0 : BitVec 1 := Scalar.cmpi .slt arg0 c25_i32
  let c48_i32 : BitVec 32 := 48#32
  let v1 : BitVec 32 := Scalar.subi c48_i32 arg0
  let c24_i32 : BitVec 32 := 24#32
  let v2 : BitVec 32 := Scalar.select v0 c24_i32 v1
  let c0_i32 : BitVec 32 := 0#32
  let c0_i32_0 : BitVec 32 := 0#32
  ![v2.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  shapeCasts_S_S1x1 : S_.ShapeCasts S1x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  h_S400x128 : 0 < S400x128.numel
  shapeCasts_S400x128_S400x128 : S400x128.ShapeCasts S400x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S400x128_S400x128_0_0 : ∀ a, (![0, 0] : Fin 2 → Nat) a + S400x128.size a ≤ S400x128.size a
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 18
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S128x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .i1⟩
  | .hbm, ⟨15, _⟩ => ⟨S10000x128, .f32⟩
  | .hbm, ⟨16, _⟩ => ⟨S10000x128, .f32⟩
  | .hbm, ⟨17, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsGrid.lean ====
import proofs.«133058_g18975165514648_fold_wed_m_529_27_alg».proof.Proof.Gen.Kernel.Frame

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The schedule, decided over the 49 grid points

Point `t < 25` of the first hop has adjacency stripe `t` and stores rows `400 t .. 400 t + 400` of the second scratch;
point `t ≥ 24` of the second hop has adjacency stripe `48 - t` and writes output stripe `48 - t`; the output window is
parked on stripe 24, idle and not written back, at the points before 24. Each fact below is a statement about the printed
index maps and conditions, decided by evaluating them at the 49 points. -/

/-- `t = 0`, as the body computes it. -/
abbrev condFirst (i : grid0.Coords) : Prop := (Scalar.cmpi .ne (Scalar.extui (Scalar.cmpi .eq (BitVec.ofNat 32 (i 0).val) 0#32)) 0#32) = 1#1
/-- `t < 25`, as the body computes it. -/
abbrev condHop1 (i : grid0.Coords) : Prop := k0_cond2 i = 1#1
/-- `24 ≤ t`, as the body computes it. -/
abbrev condHop2 (i : grid0.Coords) : Prop := k0_cond3 i = 1#1

theorem zero2 : (![0, 0] : Fin 2 → Nat) = fun _ => 0 := funext fun a => by fin_cases a <;> rfl

theorem condFirst_iff : ∀ t : Fin cfg0.N, condFirst (grid0.coords t) ↔ t.val = 0 :=
  (by decide +kernel : ∀ t : Fin grid0.N, condFirst (grid0.coords t) ↔ t.val = 0)
theorem condHop1_iff : ∀ t : Fin cfg0.N, condHop1 (grid0.coords t) ↔ t.val < 25 :=
  (by decide +kernel : ∀ t : Fin grid0.N, condHop1 (grid0.coords t) ↔ t.val < 25)
theorem condHop2_iff : ∀ t : Fin cfg0.N, condHop2 (grid0.coords t) ↔ 24 ≤ t.val :=
  (by decide +kernel : ∀ t : Fin grid0.N, condHop2 (grid0.coords t) ↔ 24 ≤ t.val)

/-- The slab stored at a point of the first hop starts at row `400 t`, column 0. -/
theorem slabOff : ∀ t : Fin cfg0.N, t.val < 25 → k0_off1 (grid0.coords t) = ![400 * t.val, 0] :=
  (by decide +kernel : ∀ t : Fin grid0.N, t.val < 25 → k0_off1 (grid0.coords t) = ![400 * t.val, 0])

/-- The output block is written back exactly at the points of the second hop. -/
theorem flush5_iff : ∀ t : Fin cfg0.N, (cfg0.win 5).flush t = true ↔ 24 ≤ t.val :=
  (by decide +kernel : ∀ t : Fin grid0.N, win0_5.flush t = true ↔ 24 ≤ t.val)
/-- The output window is idle exactly before them. -/
theorem idle5_iff : ∀ t : Fin cfg0.N, cfg0.idle 5 (grid0.coords t) = true ↔ t.val < 24 :=
  (by decide +kernel : ∀ t : Fin grid0.N, idle0 5 (grid0.coords t) = true ↔ t.val < 24)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-- The adjacency stripe of a point: `t` in the first hop, `48 - t` after it. -/
theorem stripe0 : ∀ t : Fin cfg0.N, win0_0.index t (0 : Fin 2) = (if t.val < 25 then t.val else 48 - t.val) ∧ win0_0.index t (1 : Fin 2) = 0 :=
  (by decide +kernel : ∀ t : Fin grid0.N, win0_0.index t (0 : Fin 2) = (if t.val < 25 then t.val else 48 - t.val) ∧ win0_0.index t (1 : Fin 2) = 0)
/-- The output stripe of a point of the second hop: `48 - t`. -/
theorem stripe5 : ∀ t : Fin cfg0.N, 24 ≤ t.val → win0_5.index t (0 : Fin 2) = 48 - t.val ∧ win0_5.index t (1 : Fin 2) = 0 :=
  (by decide +kernel : ∀ t : Fin grid0.N, 24 ≤ t.val → win0_5.index t (0 : Fin 2) = 48 - t.val ∧ win0_5.index t (1 : Fin 2) = 0)
/-- The whole-array windows sit at block (0, 0) throughout. -/
theorem block1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem block2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem block3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem block4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- Every output stripe is some point's of the second hop. -/
theorem stripe5_onto : ∀ q : Fin 25, ∃ t : Fin cfg0.N, 24 ≤ t.val ∧ win0_5.index t (0 : Fin 2) = q.val ∧ win0_5.index t (1 : Fin 2) = 0 :=
  (by decide +kernel : ∀ q : Fin 25, ∃ t : Fin grid0.N, 24 ≤ t.val ∧ win0_5.index t (0 : Fin 2) = q.val ∧ win0_5.index t (1 : Fin 2) = 0)

end Cert.Kernel.Body

end
-- ==== Proof.BitsRuns.lean ====
import proofs.«133058_g18975165514648_fold_wed_m_529_27_alg».proof.Proof.BitsGrid
import proofs.«133058_g18975165514648_fold_wed_m_529_27_alg».proof.Proof.Gen.Kernel.Skeleton
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The kernel body, case by case

The body has three conditionals on the grid position `t` (49 points):
* at `t = 0` it stores `f = seq · Wᵀ` (payload `k0_pay1`) over the whole first scratch;
* at `t < 25` it stores the slab `adj[400t .. 400t+400, :] · f` (payload `k0_pay2`) into rows
  `400t .. 400t+400` of the second scratch;
* at `24 ≤ t` it loads the whole second scratch `h` and stores
  `prelu (adj-block · h + bias)` (payload `k0_pay3`) over the whole output block.
The grid meets four combinations. For each one the body's triple is stated below with every buffer it
is handed at NAMED contents, and the lists of stores each written buffer ends with are found by the
symbolic run; the lemmas after each run say what those lists are, in terms of the payloads applied to
the named contents. Everything here holds at any float instance. -/

/-! ## `t = 0`: the first product and the first slab -/

set_option maxHeartbeats 1000000 in
/-- The body at the first point. The first scratch is handed over at anything and ends with the stores `L7`;
    the second is handed over at `xs1` and ends with the stores `L8` over it; the output buffer is not touched. -/
noncomputable def runFirst (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : condFirst i) (hc1 : condHop1 i) (hc2 : ¬condHop2 i)
    (x0 : Vec F S400x10000 .f32) (x1 : Vec F S10000x128 .f32) (x2 : Vec F S128x128 .f32) (x3 : Vec F S1x128 .f32) (x4 : Vec F S1x1 .f32) (y5 : Vec F S400x128 .f32) (xs1 : Vec F S10000x128 .f32) :
    Σ' (L7 : List (View.Piece (Elt F) S10000x128 .f32)) (L8 : List (View.Piece (Elt F) S10000x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ (∃ d, owns (c : Thread nD τ) arg7 fullShare d) ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ (∃ f, arg7.view.loc (c : Thread nD τ) ↦[arg7.view.set]{fullShare} arg7.view.writes (Elt F) f L7) ∗ (∃ f, ⌜arg8.view.read (Elt F) f = xs1⌝ ∗ arg8.view.loc (c : Thread nD τ) ↦[arg8.view.set]{fullShare} arg8.view.writes (Elt F) f L8)) -∗ K ⟨⟩))
          ⊢ wp frame (wpE (defs₀ (F := F)) Variants.none c none) E (cc0__gcn_kern i arg1 harg1 arg2 harg2 arg3 harg3 arg4 harg4 arg5 harg5 arg6 harg6 arg7 harg7 arg8 harg8) K := by
  refine ⟨?_, ?_, fun E K => ?run⟩
  case run =>
    simp only [cc0__gcn_kern_eq_skeleton]; unfold cc0__gcn_kern_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact hf5
      iexact H5
    isplitl [HS0]; · iexists _; iexact HS0
    iexists _; isplitr; · ipureintro; exact hfs1
    iexact HS1

/-- The first scratch's one store: the whole buffer, `f` of the two loaded operands. -/
theorem runFirst_f (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : condFirst i) (hc1 : condHop1 i) (hc2 : ¬condHop2 i)
    (x0 : Vec F S400x10000 .f32) (x1 : Vec F S10000x128 .f32) (x2 : Vec F S128x128 .f32) (x3 : Vec F S1x128 .f32) (x4 : Vec F S1x1 .f32) (y5 : Vec F S400x128 .f32) (xs1 : Vec F S10000x128 .f32) :
    (runFirst c i arg1 harg1 arg2 harg2 arg3 harg3 arg4 harg4 arg5 harg5 arg6 harg6 arg7 harg7 arg8 harg8 hc0 hc1 hc2 x0 x1 x2 x3 x4 y5 xs1).1
      = [⟨Rect.unit (s := S10000x128) ![0, 0] S10000x128.size inb_S10000x128_S10000x128_0_0, k0_pay1 x1 x2⟩] := by
  unfold runFirst
  dsimp only
  sl_unfold_words
  simp only [View.readAt_eq_ld, harg2.read_unread, harg3.read_unread, View.ld_unit_zero (S := S10000x128) zero2, View.ld_unit_zero (S := S128x128) zero2]
  try rfl

/-- The second scratch's one store: rows `400 t ..`, the slab product of the adjacency block with that `f`
    (read back from the first scratch after its store). -/
theorem runFirst_h (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : condFirst i) (hc1 : condHop1 i) (hc2 : ¬condHop2 i)
    (x0 : Vec F S400x10000 .f32) (x1 : Vec F S10000x128 .f32) (x2 : Vec F S128x128 .f32) (x3 : Vec F S1x128 .f32) (x4 : Vec F S1x1 .f32) (y5 : Vec F S400x128 .f32) (xs1 : Vec F S10000x128 .f32) :
    (runFirst c i arg1 harg1 arg2 harg2 arg3 harg3 arg4 harg4 arg5 harg5 arg6 harg6 arg7 harg7 arg8 harg8 hc0 hc1 hc2 x0 x1 x2 x3 x4 y5 xs1).2.1
      = [⟨Rect.unit (s := S10000x128) (k0_off1 i) S400x128.size (k0_off1_inb i hc1), k0_pay2 x0 (k0_pay1 x1 x2)⟩] := by
  unfold runFirst
  dsimp only
  sl_unfold_run_names
  simp only [View.readCov_unit_zero (S := S10000x128) _ zero2, View.readAt_eq_ld, harg1.read_unread, harg2.read_unread, harg3.read_unread, View.ld_unit_zero (S := S10000x128) zero2, View.ld_unit_zero (S := S128x128) zero2, View.ld_unit_zero (S := S400x10000) zero2]
  try rfl

/-! ## `0 < t < 24`: a slab -/

set_option maxHeartbeats 1000000 in
/-- The body at a point of the first hop after the first: the first scratch at `xs0` is read, the second at `xs1`
    takes one slab store, the output buffer is not touched. -/
noncomputable def runSlab (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : ¬condFirst i) (hc1 : condHop1 i) (hc2 : ¬condHop2 i)
    (x0 : Vec F S400x10000 .f32) (x1 : Vec F S10000x128 .f32) (x2 : Vec F S128x128 .f32) (x3 : Vec F S1x128 .f32) (x4 : Vec F S1x1 .f32) (y5 : Vec F S400x128 .f32) (xs0 : Vec F S10000x128 .f32) (xs1 : Vec F S10000x128 .f32) :
    Σ' (L8 : List (View.Piece (Elt F) S10000x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare xs0 ∗ (∃ f, ⌜arg8.view.read (Elt F) f = xs1⌝ ∗ arg8.view.loc (c : Thread nD τ) ↦[arg8.view.set]{fullShare} arg8.view.writes (Elt F) f L8)) -∗ K ⟨⟩))
          ⊢ wp frame (wpE (defs₀ (F := F)) Variants.none c none) E (cc0__gcn_kern i arg1 harg1 arg2 harg2 arg3 harg3 arg4 harg4 arg5 harg5 arg6 harg6 arg7 harg7 arg8 harg8) K := by
  refine ⟨?_, fun E K => ?run⟩
  case run =>
    simp only [cc0__gcn_kern_eq_skeleton]; unfold cc0__gcn_kern_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact hf5
      iexact H5
    isplitl [HS0]
    · iexists _; isplitr; · ipureintro; exact harg7.read_unread _
      iexact HS0
    iexists _; isplitr; · ipureintro; exact hfs1
    iexact HS1

/-- Its one store: rows `400 t ..`, the slab product of the adjacency block with the first scratch's contents. -/
theorem runSlab_h (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : ¬condFirst i) (hc1 : condHop1 i) (hc2 : ¬condHop2 i)
    (x0 : Vec F S400x10000 .f32) (x1 : Vec F S10000x128 .f32) (x2 : Vec F S128x128 .f32) (x3 : Vec F S1x128 .f32) (x4 : Vec F S1x1 .f32) (y5 : Vec F S400x128 .f32) (xs0 : Vec F S10000x128 .f32) (xs1 : Vec F S10000x128 .f32) :
    (runSlab c i arg1 harg1 arg2 harg2 arg3 harg3 arg4 harg4 arg5 harg5 arg6 harg6 arg7 harg7 arg8 harg8 hc0 hc1 hc2 x0 x1 x2 x3 x4 y5 xs0 xs1).1
      = [⟨Rect.unit (s := S10000x128) (k0_off1 i) S400x128.size (k0_off1_inb i hc1), k0_pay2 x0 xs0⟩] := by
  unfold runSlab
  dsimp only
  sl_unfold_words
  simp only [View.readAt_eq_ld, harg1.read_unread, harg7.read_unread, View.ld_unit_zero (S := S10000x128) zero2, View.ld_unit_zero (S := S400x10000) zero2]
  try rfl

/-! ## `t = 24`: the last slab, then the first output block -/

set_option maxHeartbeats 1000000 in
/-- The body at the point where the two hops meet: the last slab store into the second scratch, then the whole of it
    read back for the output block. The output buffer is handed over at anything and ends with the stores `L6`. -/
noncomputable def runMeet (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : ¬condFirst i) (hc1 : condHop1 i) (hc2 : condHop2 i)
    (x0 : Vec F S400x10000 .f32) (x1 : Vec F S10000x128 .f32) (x2 : Vec F S128x128 .f32) (x3 : Vec F S1x128 .f32) (x4 : Vec F S1x1 .f32) (xs0 : Vec F S10000x128 .f32) (xs1 : Vec F S10000x128 .f32) :
    Σ' (L8 : List (View.Piece (Elt F) S10000x128 .f32)) (L6 : List (View.Piece (Elt F) S400x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L6) ∗ owns (c : Thread nD τ) arg7 fullShare xs0 ∗ (∃ f, ⌜arg8.view.read (Elt F) f = xs1⌝ ∗ arg8.view.loc (c : Thread nD τ) ↦[arg8.view.set]{fullShare} arg8.view.writes (Elt F) f L8)) -∗ K ⟨⟩))
          ⊢ wp frame (wpE (defs₀ (F := F)) Variants.none c none) E (cc0__gcn_kern i arg1 harg1 arg2 harg2 arg3 harg3 arg4 harg4 arg5 harg5 arg6 harg6 arg7 harg7 arg8 harg8) K := by
  refine ⟨?_, ?_, fun E K => ?run⟩
  case run =>
    simp only [cc0__gcn_kern_eq_skeleton]; unfold cc0__gcn_kern_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    iexists _; isplitr; · ipureintro; exact harg8.read_unread _
    iexact HS1

/-- The slab store, as at the earlier points. -/
theorem runMeet_h (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : ¬condFirst i) (hc1 : condHop1 i) (hc2 : condHop2 i)
    (x0 : Vec F S400x10000 .f32) (x1 : Vec F S10000x128 .f32) (x2 : Vec F S128x128 .f32) (x3 : Vec F S1x128 .f32) (x4 : Vec F S1x1 .f32) (xs0 : Vec F S10000x128 .f32) (xs1 : Vec F S10000x128 .f32) :
    (runMeet c i arg1 harg1 arg2 harg2 arg3 harg3 arg4 harg4 arg5 harg5 arg6 harg6 arg7 harg7 arg8 harg8 hc0 hc1 hc2 x0 x1 x2 x3 x4 xs0 xs1).1
      = [⟨Rect.unit (s := S10000x128) (k0_off1 i) S400x128.size (k0_off1_inb i hc1), k0_pay2 x0 xs0⟩] := by
  unfold runMeet
  dsimp only
  sl_unfold_words
  simp only [View.readAt_eq_ld, harg1.read_unread, harg7.read_unread, View.ld_unit_zero (S := S10000x128) zero2, View.ld_unit_zero (S := S400x10000) zero2]
  try rfl

/-- The output block's one store: the whole block, the output payload of the adjacency block, of the second scratch
    as the slab store left it (read through the scratch's own view), of the bias row and of the slope. -/
theorem runMeet_o (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : ¬condFirst i) (hc1 : condHop1 i) (hc2 : condHop2 i)
    (x0 : Vec F S400x10000 .f32) (x1 : Vec F S10000x128 .f32) (x2 : Vec F S128x128 .f32) (x3 : Vec F S1x128 .f32) (x4 : Vec F S1x1 .f32) (xs0 : Vec F S10000x128 .f32) (xs1 : Vec F S10000x128 .f32) :
    (runMeet c i arg1 harg1 arg2 harg2 arg3 harg3 arg4 harg4 arg5 harg5 arg6 harg6 arg7 harg7 arg8 harg8 hc0 hc1 hc2 x0 x1 x2 x3 x4 xs0 xs1).2.1
      = [⟨Rect.unit (s := S400x128) ![0, 0] S400x128.size inb_S400x128_S400x128_0_0, k0_pay3 x0 (arg8.view.read (Elt F) (arg8.view.writes (Elt F) (harg8.unread xs1) [⟨Rect.unit (s := S10000x128) (k0_off1 i) S400x128.size (k0_off1_inb i hc1), k0_pay2 x0 xs0⟩])) x3 x4⟩] := by
  unfold runMeet
  dsimp only
  sl_unfold_run_names
  simp only [View.readAt_eq_ld, harg1.read_unread, harg4.read_unread, harg5.read_unread, harg7.read_unread, View.ld_unit_zero (S := S10000x128) zero2, View.ld_unit_zero (S := S400x10000) zero2, View.ld_unit_zero (S := S1x128) zero2, View.ld_unit_zero (S := S1x1) zero2]
  try rfl

/-! ## `24 < t`: an output block -/

set_option maxHeartbeats 1000000 in
/-- The body at a point of the second hop after the meeting point: both scratch buffers are only read. -/
noncomputable def runOut (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : ¬condFirst i) (hc1 : ¬condHop1 i) (hc2 : condHop2 i)
    (x0 : Vec F S400x10000 .f32) (x1 : Vec F S10000x128 .f32) (x2 : Vec F S128x128 .f32) (x3 : Vec F S1x128 .f32) (x4 : Vec F S1x1 .f32) (xs0 : Vec F S10000x128 .f32) (xs1 : Vec F S10000x128 .f32) :
    Σ' (L6 : List (View.Piece (Elt F) S400x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L6) ∗ owns (c : Thread nD τ) arg7 fullShare xs0 ∗ owns (c : Thread nD τ) arg8 fullShare xs1) -∗ K ⟨⟩))
          ⊢ wp frame (wpE (defs₀ (F := F)) Variants.none c none) E (cc0__gcn_kern i arg1 harg1 arg2 harg2 arg3 harg3 arg4 harg4 arg5 harg5 arg6 harg6 arg7 harg7 arg8 harg8) K := by
  refine ⟨?_, fun E K => ?run⟩
  case run =>
    simp only [cc0__gcn_kern_eq_skeleton]; unfold cc0__gcn_kern_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    iexists _; isplitr; · ipureintro; exact harg8.read_unread _
    iexact HS1

/-- The output block's one store: the output payload of the adjacency block, the second scratch's contents, the bias
    row and the slope. -/
theorem runOut_o (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : ¬condFirst i) (hc1 : ¬condHop1 i) (hc2 : condHop2 i)
    (x0 : Vec F S400x10000 .f32) (x1 : Vec F S10000x128 .f32) (x2 : Vec F S128x128 .f32) (x3 : Vec F S1x128 .f32) (x4 : Vec F S1x1 .f32) (xs0 : Vec F S10000x128 .f32) (xs1 : Vec F S10000x128 .f32) :
    (runOut c i arg1 harg1 arg2 harg2 arg3 harg3 arg4 harg4 arg5 harg5 arg6 harg6 arg7 harg7 arg8 harg8 hc0 hc1 hc2 x0 x1 x2 x3 x4 xs0 xs1).1
      = [⟨Rect.unit (s := S400x128) ![0, 0] S400x128.size inb_S400x128_S400x128_0_0, k0_pay3 x0 xs1 x3 x4⟩] := by
  unfold runOut
  dsimp only
  sl_unfold_words
  simp only [View.readAt_eq_ld, harg1.read_unread, harg4.read_unread, harg5.read_unread, harg8.read_unread, View.ld_unit_zero (S := S10000x128) zero2, View.ld_unit_zero (S := S400x10000) zero2, View.ld_unit_zero (S := S1x128) zero2, View.ld_unit_zero (S := S1x1) zero2]
  try rfl

end Cert.Kernel.Body

end
-- ==== Proof.BitsTriples.lean ====
import proofs.«133058_g18975165514648_fold_wed_m_529_27_alg».proof.Proof.BitsRuns
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The four triples, read

Each case's triple restated with every buffer owned at a named function before and after. A store over a whole buffer
leaves its payload; a slab store into rows `o .. o + 400` of the second scratch leaves contents `Z` that are the
payload on those rows and the old contents on every other row (`SlabAt`). -/

attribute [local irreducible] runFirst runSlab runMeet runOut

/-- `Z` is `old` with rows `o .. o + 400` replaced by the 400-row block `w`. -/
def SlabAt (o : ℕ) (old : Vec F S10000x128 .f32) (w : Vec F S400x128 .f32) (Z : Vec F S10000x128 .f32) : Prop :=
  (∀ (y : S10000x128.Idx) (x : S400x128.Idx), (y (0 : Fin 2)).val = o + (x (0 : Fin 2)).val → (y (1 : Fin 2)).val = (x (1 : Fin 2)).val → Z y = w x)
  ∧ (∀ y : S10000x128.Idx, ((y (0 : Fin 2)).val < o ∨ o + 400 ≤ (y (0 : Fin 2)).val) → Z y = old y)

/-- One store of 400 whole rows at row `o`, read back through the buffer's view. -/
theorem slab_read (M : Memref sig .tc .vmem S10000x128 .f32) (f : M.view.ty.Contents (Elt F)) (off : Fin 2 → ℕ)
    (inb : ∀ a, off a + S400x128.size a ≤ S10000x128.size a) (w : Vec F S400x128 .f32) (o : ℕ) (hoff : off = ![o, 0]) :
    SlabAt o (M.view.read (Elt F) f) w
      (M.view.read (Elt F) (M.view.writes (Elt F) f [⟨Rect.unit (s := S10000x128) off S400x128.size inb, w⟩])) :=
  ⟨fun y x h0 h1 => View.read_writes_cons_rows_of_mem M.view f inb w [] y x hoff h0 h1,
   fun y h => View.read_writes_cons_rows_of_not_mem M.view f inb w [] y hoff rfl h⟩

/-- One store over a whole buffer leaves its payload, whatever was there. -/
theorem owns_of_whole_store {S : Shape} (c : Dev nD) (M : Memref sig .tc .vmem S .f32) {off : Fin S.rank → ℕ} (h : off = fun _ => 0)
    (inb : ∀ a, off a + S.size a ≤ S.size a) (w : S.Idx → Elt F .f32) :
    iprop(∃ f, M.view.loc (c : Thread nD τ) ↦[M.view.set]{fullShare} M.view.writes (Elt F) f [⟨Rect.unit off S.size inb, w⟩])
      ⊢ (owns (c : Thread nD τ) M fullShare w : sProp 𝕄) := by
  iintro ⟨%f, H⟩
  unfold owns; iexists _; isplitr; swap; · iexact H
  ipureintro
  subst h
  funext y
  exact View.read_writes_cons_unit_of_mem M.view f inb w [] y y rfl (fun a => (Nat.zero_add _).symm)

variable (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (o : ℕ) (ho : k0_off1 i = ![o, 0])
  (x0 : Vec F S400x10000 .f32) (x1 : Vec F S10000x128 .f32) (x2 : Vec F S128x128 .f32) (x3 : Vec F S1x128 .f32) (x4 : Vec F S1x1 .f32)

include ho in
/-- `t = 0`. -/
theorem tripleFirst (hc0 : condFirst i) (hc1 : condHop1 i) (hc2 : ¬condHop2 i) (y5 : Vec F S400x128 .f32) (xs1 : Vec F S10000x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ (∃ d, owns (c : Thread nD τ) arg7 fullShare d) ∗ owns (c : Thread nD τ) arg8 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare (k0_pay1 x1 x2) ∗ (∃ Z, ⌜SlabAt o xs1 (k0_pay2 x0 (k0_pay1 x1 x2)) Z⌝ ∗ owns (c : Thread nD τ) arg8 fullShare Z)) -∗ K ⟨⟩))
      ⊢ wp frame (wpE (defs₀ (F := F)) Variants.none c none) E (cc0__gcn_kern i arg1 harg1 arg2 harg2 arg3 harg3 arg4 harg4 arg5 harg5 arg6 harg6 arg7 harg7 arg8 harg8) K := by
  have e7 := runFirst_f c i arg1 harg1 arg2 harg2 arg3 harg3 arg4 harg4 arg5 harg5 arg6 harg6 arg7 harg7 arg8 harg8 hc0 hc1 hc2 x0 x1 x2 x3 x4 y5 xs1
  have e8 := runFirst_h c i arg1 harg1 arg2 harg2 arg3 harg3 arg4 harg4 arg5 harg5 arg6 harg6 arg7 harg7 arg8 harg8 hc0 hc1 hc2 x0 x1 x2 x3 x4 y5 xs1
  rcases hr : runFirst c i arg1 harg1 arg2 harg2 arg3 harg3 arg4 harg4 arg5 harg5 arg6 harg6 arg7 harg7 arg8 harg8 hc0 hc1 hc2 x0 x1 x2 x3 x4 y5 xs1 with ⟨L7, L8, key⟩
  rw [hr] at e7 e8
  replace e7 : L7 = _ := e7
  replace e8 : L8 = _ := e8
  subst e7 e8
  refine BIBase.Entails.trans ?_ (key E K)
  iintro ⟨H0, H1, H2, H3, H4, H5, HS0, HS1, Hk⟩
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, ⟨%f, %hf, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [HS0]; · iapply (owns_of_whole_store c arg7 zero2 _ _); iexact HS0
  iexists _; isplitr
  · ipureintro
    have h := slab_read arg8 f (k0_off1 i) (k0_off1_inb i hc1) (k0_pay2 x0 (k0_pay1 x1 x2)) o ho
    rw [hf] at h; exact h
  iapply (owns_intro (c : Thread nD τ) arg8 fullShare _); iexact HS1

include ho in
/-- `0 < t < 24`. -/
theorem tripleSlab (hc0 : ¬condFirst i) (hc1 : condHop1 i) (hc2 : ¬condHop2 i) (y5 : Vec F S400x128 .f32)
    (xs0 : Vec F S10000x128 .f32) (xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare xs0 ∗ owns (c : Thread nD τ) arg8 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare xs0 ∗ (∃ Z, ⌜SlabAt o xs1 (k0_pay2 x0 xs0) Z⌝ ∗ owns (c : Thread nD τ) arg8 fullShare Z)) -∗ K ⟨⟩))
      ⊢ wp frame (wpE (defs₀ (F := F)) Variants.none c none) E (cc0__gcn_kern i arg1 harg1 arg2 harg2 arg3 harg3 arg4 harg4 arg5 harg5 arg6 harg6 arg7 harg7 arg8 harg8) K := by
  have e8 := runSlab_h c i arg1 harg1 arg2 harg2 arg3 harg3 arg4 harg4 arg5 harg5 arg6 harg6 arg7 harg7 arg8 harg8 hc0 hc1 hc2 x0 x1 x2 x3 x4 y5 xs0 xs1
  rcases hr : runSlab c i arg1 harg1 arg2 harg2 arg3 harg3 arg4 harg4 arg5 harg5 arg6 harg6 arg7 harg7 arg8 harg8 hc0 hc1 hc2 x0 x1 x2 x3 x4 y5 xs0 xs1 with ⟨L8, key⟩
  rw [hr] at e8
  replace e8 : L8 = _ := e8
  subst e8
  refine BIBase.Entails.trans ?_ (key E K)
  iintro ⟨H0, H1, H2, H3, H4, H5, HS0, HS1, Hk⟩
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, ⟨%f, %hf, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [HS0]; · iexact HS0
  iexists _; isplitr
  · ipureintro
    have h := slab_read arg8 f (k0_off1 i) (k0_off1_inb i hc1) (k0_pay2 x0 xs0) o ho
    rw [hf] at h; exact h
  iapply (owns_intro (c : Thread nD τ) arg8 fullShare _); iexact HS1

include ho in
/-- `t = 24`: the output payload reads the second scratch as the slab store has just left it. -/
theorem tripleMeet (hc0 : ¬condFirst i) (hc1 : condHop1 i) (hc2 : condHop2 i)
    (xs0 : Vec F S10000x128 .f32) (xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare xs0 ∗ (∃ Z, ⌜SlabAt o xs1 (k0_pay2 x0 xs0) Z⌝ ∗ owns (c : Thread nD τ) arg6 fullShare (k0_pay3 x0 Z x3 x4) ∗ owns (c : Thread nD τ) arg8 fullShare Z)) -∗ K ⟨⟩))
      ⊢ wp frame (wpE (defs₀ (F := F)) Variants.none c none) E (cc0__gcn_kern i arg1 harg1 arg2 harg2 arg3 harg3 arg4 harg4 arg5 harg5 arg6 harg6 arg7 harg7 arg8 harg8) K := by
  have e8 := runMeet_h c i arg1 harg1 arg2 harg2 arg3 harg3 arg4 harg4 arg5 harg5 arg6 harg6 arg7 harg7 arg8 harg8 hc0 hc1 hc2 x0 x1 x2 x3 x4 xs0 xs1
  have e6 := runMeet_o c i arg1 harg1 arg2 harg2 arg3 harg3 arg4 harg4 arg5 harg5 arg6 harg6 arg7 harg7 arg8 harg8 hc0 hc1 hc2 x0 x1 x2 x3 x4 xs0 xs1
  rcases hr : runMeet c i arg1 harg1 arg2 harg2 arg3 harg3 arg4 harg4 arg5 harg5 arg6 harg6 arg7 harg7 arg8 harg8 hc0 hc1 hc2 x0 x1 x2 x3 x4 xs0 xs1 with ⟨L8, L6, key⟩
  rw [hr] at e8 e6
  replace e8 : L8 = _ := e8
  replace e6 : L6 = _ := e6
  subst e8 e6
  refine BIBase.Entails.trans ?_ (key E K)
  iintro ⟨H0, H1, H2, H3, H4, H5, HS0, HS1, Hk⟩
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, ⟨%f, %hf, HS1⟩⟩
  obtain rfl := harg8.eq_unread hf
  iapply Hk
  isplitl [H0]; · iexact H0
  isplitl [H1]; · iexact H1
  isplitl [H2]; · iexact H2
  isplitl [H3]; · iexact H3
  isplitl [H4]; · iexact H4
  isplitl [HS0]; · iexact HS0
  iexists _; isplitr
  · ipureintro
    have h := slab_read arg8 (harg8.unread xs1) (k0_off1 i) (k0_off1_inb i hc1) (k0_pay2 x0 xs0) o ho
    rw [harg8.read_unread xs1] at h; exact h
  isplitl [H5]; · iapply (owns_of_whole_store c arg6 zero2 _ _); iexact H5
  iapply (owns_intro (c : Thread nD τ) arg8 fullShare _); iexact HS1

/-- `24 < t`. -/
theorem tripleOut (hc0 : ¬condFirst i) (hc1 : ¬condHop1 i) (hc2 : condHop2 i)
    (xs0 : Vec F S10000x128 .f32) (xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 x0 xs1 x3 x4) ∗ owns (c : Thread nD τ) arg7 fullShare xs0 ∗ owns (c : Thread nD τ) arg8 fullShare xs1) -∗ K ⟨⟩))
      ⊢ wp frame (wpE (defs₀ (F := F)) Variants.none c none) E (cc0__gcn_kern i arg1 harg1 arg2 harg2 arg3 harg3 arg4 harg4 arg5 harg5 arg6 harg6 arg7 harg7 arg8 harg8) K := by
  have e6 := runOut_o c i arg1 harg1 arg2 harg2 arg3 harg3 arg4 harg4 arg5 harg5 arg6 harg6 arg7 harg7 arg8 harg8 hc0 hc1 hc2 x0 x1 x2 x3 x4 xs0 xs1
  rcases hr : runOut c i arg1 harg1 arg2 harg2 arg3 harg3 arg4 harg4 arg5 harg5 arg6 harg6 arg7 harg7 arg8 harg8 hc0 hc1 hc2 x0 x1 x2 x3 x4 xs0 xs1 with ⟨L6, key⟩
  rw [hr] at e6
  replace e6 : L6 = _ := e6
  subst e6
  refine BIBase.Entails.trans ?_ (key E K)
  iintro ⟨H0, H1, H2, H3, H4, H5, HS0, HS1, Hk⟩
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  iapply Hk
  isplitl [H0]; · iexact H0
  isplitl [H1]; · iexact H1
  isplitl [H2]; · iexact H2
  isplitl [H3]; · iexact H3
  isplitl [H4]; · iexact H4
  isplitl [H5]; · iapply (owns_of_whole_store c arg6 zero2 _ _); iexact H5
  isplitl [HS0]; · iexact HS0
  iexact HS1

end Cert.Kernel.Body

end
-- ==== Proof.BitsFrame.lean ====
import proofs.«133058_g18975165514648_fold_wed_m_529_27_alg».proof.Proof.BitsTriples
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.ValueIdx (ix2)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole grid

What the two scratch buffers hold between points, the proof data of the pipeline, the body obligation at every point
by cases on the schedule, and the run. Holds at any float instance. -/

/-- Each window's current staging memref at point `t`, as the pipeline passes it, and its wholeness. -/
abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x128 .f32 := win0_5.stage (cfg0.slots t 5)
abbrev hs5 (t : Fin cfg0.N) : (ms5 t).IsWhole := hstage0_5 ((cfg0.slots t 5).cast nbuf0_5)
/-- The two scratch operands: the first holds `f`, the second the first hop's result. -/
abbrev scA : Memref sig .tc .vmem S10000x128 .f32 := Memref.whole cc0_scratch0
abbrev scB : Memref sig .tc .vmem S10000x128 .f32 := Memref.whole cc0_scratch1

/-- What the launch hands the region beside the windows: both scratch buffers at anything, the generator register. -/
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

/-! ## The values -/

theorem N49 : cfg0.N = 49 := N_0

/-- The first point. -/
def t0 : Fin cfg0.N := ⟨0, by rw [N49]; omega⟩

/-- `f`: the first product, of the two whole-array windows' blocks. -/
def fVal (c : Dev nD) : Vec F S10000x128 .f32 := k0_pay1 (iblk m c 1 t0) (iblk m c 2 t0)

/-- The slab a point of the first hop stores: its adjacency block times `f`. -/
def hBlk (c : Dev nD) (t : Fin cfg0.N) : Vec F S400x128 .f32 := k0_pay2 (iblk m c 0 t) (fVal m c)

/-- The first hop's whole result: row `r` is row `r % 400` of the slab of point `r / 400`. -/
def hAll (c : Dev nD) : Vec F S10000x128 .f32 := fun y =>
  hBlk m c ⟨(y (0 : Fin 2)).val / 400, by have := ValueIdx.idx2_lt0 y; rw [N49]; omega⟩
    (ix2 (⟨(y (0 : Fin 2)).val % 400, Nat.mod_lt _ (by omega)⟩ : Fin 400) (⟨(y (1 : Fin 2)).val, ValueIdx.idx2_lt1 y⟩ : Fin 128))

/-- The output block a point of the second hop stores. -/
def outBlk (c : Dev nD) (t : Fin cfg0.N) : Vec F S400x128 .f32 := k0_pay3 (iblk m c 0 t) (hAll m c) (iblk m c 3 t) (iblk m c 4 t)

theorem hBlk_congr (c : Dev nD) (t t' : Fin cfg0.N) (p p' : Fin 400) (b b' : Fin 128) (ht : t.val = t'.val) (hp : p.val = p'.val) (hb : b.val = b'.val) :
    hBlk m c t (ix2 p b) = hBlk m c t' (ix2 p' b') := by
  obtain rfl := Fin.ext ht; obtain rfl := Fin.ext hp; obtain rfl := Fin.ext hb; rfl

/-- The second scratch holds the first hop's result on its first `400 n` rows. -/
def Filled (c : Dev nD) (n : ℕ) (d : Vec F S10000x128 .f32) : Prop :=
  ∀ y : S10000x128.Idx, (y (0 : Fin 2)).val < 400 * n → d y = hAll m c y

/-- Storing point `t`'s slab at row `400 t` over contents filled up to there fills 400 rows more. -/
theorem Filled.step (c : Dev nD) (t : Fin cfg0.N) (ht : t.val < 25) (d Z : Vec F S10000x128 .f32)
    (hF : Filled m c t.val d) (hZ : SlabAt (400 * t.val) d (hBlk m c t) Z) : Filled m c (t.val + 1) Z := by
  intro y hy
  have hy0 := ValueIdx.idx2_lt0 y
  have hy1 := ValueIdx.idx2_lt1 y
  by_cases h : (y (0 : Fin 2)).val < 400 * t.val
  · rw [hZ.2 y (Or.inl h)]; exact hF y h
  · rw [hZ.1 y (ix2 (⟨(y (0 : Fin 2)).val - 400 * t.val, by omega⟩ : Fin 400) (⟨(y (1 : Fin 2)).val, hy1⟩ : Fin 128))
      (by show (y (0 : Fin 2)).val = 400 * t.val + ((y (0 : Fin 2)).val - 400 * t.val); omega) rfl]
    unfold hAll
    exact hBlk_congr m c _ _ _ _ _ _ (by show t.val = (y (0 : Fin 2)).val / 400; omega)
      (by show (y (0 : Fin 2)).val - 400 * t.val = (y (0 : Fin 2)).val % 400; omega) rfl

/-- All 25 slabs stored: the second scratch IS the first hop's result. -/
theorem Filled.all (c : Dev nD) (n : ℕ) (hn : 25 ≤ n) (d : Vec F S10000x128 .f32) (hF : Filled m c n d) : d = hAll m c :=
  funext fun y => hF y (by have := ValueIdx.idx2_lt0 y; omega)

theorem Filled.of_all (c : Dev nD) (n : ℕ) : Filled m c n (hAll m c) := fun _ _ => rfl

theorem Filled.zero (c : Dev nD) (d : Vec F S10000x128 .f32) : Filled m c 0 d := fun y hy => by omega

/-! ## The invariant between points -/

/-- Before point `n`: at the start what the launch hands over; afterwards the first scratch at `f`, the second at
    contents filled on their first `400 n` rows, the generator register at some state. -/
def PhiS (c : Dev nD) : (n : ℕ) → n ≤ cfg0.N → sProp 𝕄
  | 0, _ => Pipeline.ΦA spec0 c
  | n + 1, _ => iprop(iprop(owns (c : Thread nD τ) scA fullShare (fVal m c) ∗ (∃ d, ⌜Filled m c (n + 1) d⌝ ∗ owns (c : Thread nD τ) scB fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scA fullShare (fVal m c) ∗ (∃ d, ⌜Filled m c (n + 1) d⌝ ∗ owns (c : Thread nD τ) scB fullShare d)) ∗ (∃ r, prngReg c r)) := rfl

theorem PhiS_pos (c : Dev nD) (n : ℕ) (h : n ≤ cfg0.N) (hz : n ≠ 0) :
    PhiS m c n h = iprop(iprop(owns (c : Thread nD τ) scA fullShare (fVal m c) ∗ (∃ d, ⌜Filled m c n d⌝ ∗ owns (c : Thread nD τ) scB fullShare d)) ∗ (∃ r, prngReg c r)) := by
  cases n with
  | zero => exact absurd rfl hz
  | succ n => rfl

/-! ## The pipeline's proof data -/

/-- The arrays as the region finds them; after the body each input's buffer at its block, the output's at the point's
    output block; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outBlk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The whole-array windows' blocks do not move: at every point they are the first point's. -/
theorem iblk1_const (c : Dev nD) (t : Fin cfg0.N) : iblk m c 1 t = iblk m c 1 t0 := by
  funext y
  show V m c main_arg0 (((cfg0.win 1).blk t).view.emb y) = V m c main_arg0 (((cfg0.win 1).blk t0).view.emb y)
  refine congrArg _ (funext fun a => Fin.ext ?_)
  obtain ⟨e0, e1⟩ := block1 t
  obtain ⟨z0, z1⟩ := block1 (t0 : Fin cfg0.N)
  match a with
  | ⟨0, _⟩ => show win0_1.index t (0 : Fin 2) * 10000 + 1 * (y 0).val = win0_1.index t0 (0 : Fin 2) * 10000 + 1 * (y 0).val; rw [e0, z0]
  | ⟨1, _⟩ => show win0_1.index t (1 : Fin 2) * 128 + 1 * (y 1).val = win0_1.index t0 (1 : Fin 2) * 128 + 1 * (y 1).val; rw [e1, z1]
theorem iblk2_const (c : Dev nD) (t : Fin cfg0.N) : iblk m c 2 t = iblk m c 2 t0 := by
  funext y
  show V m c main_arg2 (((cfg0.win 2).blk t).view.emb y) = V m c main_arg2 (((cfg0.win 2).blk t0).view.emb y)
  refine congrArg _ (funext fun a => Fin.ext ?_)
  obtain ⟨e0, e1⟩ := block2 t
  obtain ⟨z0, z1⟩ := block2 (t0 : Fin cfg0.N)
  match a with
  | ⟨0, _⟩ => show win0_2.index t (0 : Fin 2) * 128 + 1 * (y 0).val = win0_2.index t0 (0 : Fin 2) * 128 + 1 * (y 0).val; rw [e0, z0]
  | ⟨1, _⟩ => show win0_2.index t (1 : Fin 2) * 128 + 1 * (y 1).val = win0_2.index t0 (1 : Fin 2) * 128 + 1 * (y 1).val; rw [e1, z1]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- At a point before 24 the output buffer is handed back as it was found. -/
theorem leaves5_idle (c : Dev nD) (t : Fin cfg0.N) (h : t.val < 24) :
    (dats m 0 c).leavesExact 5 t = iprop(∃ d, owns (c : Thread nD τ) (ms5 t) fullShare ((dats m 0 c).before 5 t d)) :=
  (dats m 0 c).leavesExact_idle 5 t ((idle5_iff t).mpr h)
    (by rcases hb : (cfg0.win 5).flush t with _ | _
        · rfl
        · exact absurd ((flush5_iff t).mp hb) (by omega))

/-- From 24 on it is left at the point's output block. -/
theorem leaves5_live (c : Dev nD) (t : Fin cfg0.N) (h : 24 ≤ t.val) :
    (dats m 0 c).leavesExact 5 t = owns (c : Thread nD τ) (ms5 t) fullShare (outBlk m c t) := by
  have hi : cfg0.idle 5 (grid0.coords t) = false := by
    rcases hb : cfg0.idle 5 (grid0.coords t) with _ | _
    · rfl
    · exact absurd ((idle5_iff t).mp hb) (by omega)
  unfold Dat.leavesExact; rw [hi, after5]

set_option maxHeartbeats 6400000 in
/-- The body at any point, by the schedule's four cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 49 := lt_of_lt_of_eq t.isLt N49
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  by_cases hz : t.val = 0
  · -- the first point
    have h0 : condFirst (grid0.coords t) := (condFirst_iff t).mpr hz
    have h1 : condHop1 (grid0.coords t) := (condHop1_iff t).mpr (by omega)
    have h2 : ¬condHop2 (grid0.coords t) := fun h => absurd ((condHop2_iff t).mp h) (by omega)
    rw [leaves5_idle m c t (by omega)]
    rw [PhiS_castSucc m c t, PhiS_zero m c _ _ hz, PhiA_eq]
    iintro ⟨⟨⟨HS0, ⟨%d1, HS1⟩⟩, Hg⟩, Ho, ⟨%d0, H0⟩, ⟨%e1, H1⟩, ⟨%e2, H2⟩, ⟨%e3, H3⟩, ⟨%e4, H4⟩, ⟨%d5, H5⟩⟩
    iapply (tripleFirst c (grid0.coords t) (ms0 t) (hs0 t) (ms1 t) (hs1 t) (ms2 t) (hs2 t) (ms3 t) (hs3 t) (ms4 t) (hs4 t) (ms5 t) (hs5 t) scA (Memref.isWhole_whole _) scB (Memref.isWhole_whole _) (400 * t.val) (slabOff t (by omega)) (iblk m c 0 t) (iblk m c 1 t) (iblk m c 2 t) (iblk m c 3 t) (iblk m c 4 t) h0 h1 h2 ((dats m 0 c).before 5 t d5) d1 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, ⟨%Z, %hZ, HS1⟩⟩
    isplitl [HS0 HS1 Hg]
    · isplitl [HS0 HS1]
      · isplitl [HS0]
        · have ef : k0_pay1 (iblk m c 1 t) (iblk m c 2 t) = fVal m c := by unfold fVal; rw [iblk1_const m c t, iblk2_const m c t]
          rw [ef]; iexact HS0
        iexists Z; isplitr
        · ipureintro
          have ef : k0_pay2 (iblk m c 0 t) (k0_pay1 (iblk m c 1 t) (iblk m c 2 t)) = hBlk m c t := by
            unfold hBlk fVal; rw [iblk1_const m c t, iblk2_const m c t]
          rw [ef] at hZ
          exact Filled.step m c t (by omega) d1 Z (hz ▸ Filled.zero m c d1) hZ
        iexact HS1
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [PhiS_castSucc m c t, PhiS_pos m c _ _ hz]
    have h0 : ¬condFirst (grid0.coords t) := fun h => hz ((condFirst_iff t).mp h)
    by_cases hlt : t.val < 24
    · -- a slab point
      have h1 : condHop1 (grid0.coords t) := (condHop1_iff t).mpr (by omega)
      have h2 : ¬condHop2 (grid0.coords t) := fun h => absurd ((condHop2_iff t).mp h) (by omega)
      rw [leaves5_idle m c t hlt]
      iintro ⟨⟨⟨HS0, ⟨%d1, %hF, HS1⟩⟩, Hg⟩, Ho, ⟨%d0, H0⟩, ⟨%e1, H1⟩, ⟨%e2, H2⟩, ⟨%e3, H3⟩, ⟨%e4, H4⟩, ⟨%d5, H5⟩⟩
      iapply (tripleSlab c (grid0.coords t) (ms0 t) (hs0 t) (ms1 t) (hs1 t) (ms2 t) (hs2 t) (ms3 t) (hs3 t) (ms4 t) (hs4 t) (ms5 t) (hs5 t) scA (Memref.isWhole_whole _) scB (Memref.isWhole_whole _) (400 * t.val) (slabOff t (by omega)) (iblk m c 0 t) (iblk m c 1 t) (iblk m c 2 t) (iblk m c 3 t) (iblk m c 4 t) h0 h1 h2 ((dats m 0 c).before 5 t d5) (fVal m c) d1 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%Z, %hZ, HS1⟩⟩
      isplitl [HS0 HS1 Hg]
      · isplitl [HS0 HS1]
        · isplitl [HS0]; · iexact HS0
          iexists Z; isplitr
          · ipureintro; exact Filled.step m c t (by omega) d1 Z hF hZ
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · have h2 : condHop2 (grid0.coords t) := (condHop2_iff t).mpr (by omega)
      rw [leaves5_live m c t (by omega)]
      by_cases heq : t.val < 25
      · -- the meeting point
        have h1 : condHop1 (grid0.coords t) := (condHop1_iff t).mpr heq
        iintro ⟨⟨⟨HS0, ⟨%d1, %hF, HS1⟩⟩, Hg⟩, Ho, ⟨%d0, H0⟩, ⟨%e1, H1⟩, ⟨%e2, H2⟩, ⟨%e3, H3⟩, ⟨%e4, H4⟩, ⟨%d5, H5⟩⟩
        iapply (tripleMeet c (grid0.coords t) (ms0 t) (hs0 t) (ms1 t) (hs1 t) (ms2 t) (hs2 t) (ms3 t) (hs3 t) (ms4 t) (hs4 t) (ms5 t) (hs5 t) scA (Memref.isWhole_whole _) scB (Memref.isWhole_whole _) (400 * t.val) (slabOff t heq) (iblk m c 0 t) (iblk m c 1 t) (iblk m c 2 t) (iblk m c 3 t) (iblk m c 4 t) h0 h1 h2 (fVal m c) d1 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, HS0, ⟨%Z, %hZ, H5, HS1⟩⟩
        have hFZ : Filled m c (t.val + 1) Z := Filled.step m c t heq d1 Z hF hZ
        obtain rfl : Z = hAll m c := Filled.all m c _ (by omega) Z hFZ
        isplitl [HS0 HS1 Hg]
        · isplitl [HS0 HS1]
          · isplitl [HS0]; · iexact HS0
            iexists _; isplitr
            · ipureintro; exact hFZ
            iexact HS1
          iexact Hg
        isplitl [Ho]; · iexact Ho
        isplitl [H0]; · iexact H0
        isplitl [H1]; · iexact H1
        isplitl [H2]; · iexact H2
        isplitl [H3]; · iexact H3
        isplitl [H4]; · iexact H4
        iexact H5
      · -- an output point
        have h1 : ¬condHop1 (grid0.coords t) := fun h => heq ((condHop1_iff t).mp h)
        iintro ⟨⟨⟨HS0, ⟨%d1, %hF, HS1⟩⟩, Hg⟩, Ho, ⟨%d0, H0⟩, ⟨%e1, H1⟩, ⟨%e2, H2⟩, ⟨%e3, H3⟩, ⟨%e4, H4⟩, ⟨%d5, H5⟩⟩
        obtain rfl : d1 = hAll m c := Filled.all m c _ (by omega) d1 hF
        iapply (tripleOut c (grid0.coords t) (ms0 t) (hs0 t) (ms1 t) (hs1 t) (ms2 t) (hs2 t) (ms3 t) (hs3 t) (ms4 t) (hs4 t) (ms5 t) (hs5 t) scA (Memref.isWhole_whole _) scB (Memref.isWhole_whole _) (iblk m c 0 t) (iblk m c 1 t) (iblk m c 2 t) (iblk m c 3 t) (iblk m c 4 t) h0 h1 h2 (fVal m c) (hAll m c) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, H5, HS0, HS1⟩
        isplitl [HS0 HS1 Hg]
        · isplitl [HS0 HS1]
          · isplitl [HS0]; · iexact HS0
            iexists _; isplitr
            · ipureintro; exact Filled.of_all m c _
            iexact HS1
          iexact Hg
        isplitl [Ho]; · iexact Ho
        isplitl [H0]; · iexact H0
        isplitl [H1]; · iexact H1
        isplitl [H2]; · iexact H2
        isplitl [H3]; · iexact H3
        isplitl [H4]; · iexact H4
        iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch buffers' named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have := N49; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of the program terminates; every array of the pipeline ends at what the library computes
    from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.IdealGrid.lean ====
import proofs.«133058_g18975165514648_fold_wed_m_529_27_alg».proof.Proof.Gen.KernelIdeal.Frame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The schedule, decided over the 49 grid points

Point `t < 25` of the first hop has adjacency stripe `t` and stores rows `400 t .. 400 t + 400` of the second scratch;
point `t ≥ 24` of the second hop has adjacency stripe `48 - t` and writes output stripe `48 - t`; the output window is
parked on stripe 24, idle and not written back, at the points before 24. Each fact below is a statement about the printed
index maps and conditions, decided by evaluating them at the 49 points. -/

/-- `t = 0`, as the body computes it. -/
abbrev condFirst (i : grid0.Coords) : Prop := (Scalar.cmpi .ne (Scalar.extui (Scalar.cmpi .eq (BitVec.ofNat 32 (i 0).val) 0#32)) 0#32) = 1#1
/-- `t < 25`, as the body computes it. -/
abbrev condHop1 (i : grid0.Coords) : Prop := k0_cond2 i = 1#1
/-- `24 ≤ t`, as the body computes it. -/
abbrev condHop2 (i : grid0.Coords) : Prop := k0_cond3 i = 1#1

theorem zero2 : (![0, 0] : Fin 2 → Nat) = fun _ => 0 := funext fun a => by fin_cases a <;> rfl

theorem condFirst_iff : ∀ t : Fin cfg0.N, condFirst (grid0.coords t) ↔ t.val = 0 :=
  (by decide +kernel : ∀ t : Fin grid0.N, condFirst (grid0.coords t) ↔ t.val = 0)
theorem condHop1_iff : ∀ t : Fin cfg0.N, condHop1 (grid0.coords t) ↔ t.val < 25 :=
  (by decide +kernel : ∀ t : Fin grid0.N, condHop1 (grid0.coords t) ↔ t.val < 25)
theorem condHop2_iff : ∀ t : Fin cfg0.N, condHop2 (grid0.coords t) ↔ 24 ≤ t.val :=
  (by decide +kernel : ∀ t : Fin grid0.N, condHop2 (grid0.coords t) ↔ 24 ≤ t.val)

/-- The slab stored at a point of the first hop starts at row `400 t`, column 0. -/
theorem slabOff : ∀ t : Fin cfg0.N, t.val < 25 → k0_off1 (grid0.coords t) = ![400 * t.val, 0] :=
  (by decide +kernel : ∀ t : Fin grid0.N, t.val < 25 → k0_off1 (grid0.coords t) = ![400 * t.val, 0])

/-- The output block is written back exactly at the points of the second hop. -/
theorem flush5_iff : ∀ t : Fin cfg0.N, (cfg0.win 5).flush t = true ↔ 24 ≤ t.val :=
  (by decide +kernel : ∀ t : Fin grid0.N, win0_5.flush t = true ↔ 24 ≤ t.val)
/-- The output window is idle exactly before them. -/
theorem idle5_iff : ∀ t : Fin cfg0.N, cfg0.idle 5 (grid0.coords t) = true ↔ t.val < 24 :=
  (by decide +kernel : ∀ t : Fin grid0.N, idle0 5 (grid0.coords t) = true ↔ t.val < 24)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-- The adjacency stripe of a point: `t` in the first hop, `48 - t` after it. -/
theorem stripe0 : ∀ t : Fin cfg0.N, win0_0.index t (0 : Fin 2) = (if t.val < 25 then t.val else 48 - t.val) ∧ win0_0.index t (1 : Fin 2) = 0 :=
  (by decide +kernel : ∀ t : Fin grid0.N, win0_0.index t (0 : Fin 2) = (if t.val < 25 then t.val else 48 - t.val) ∧ win0_0.index t (1 : Fin 2) = 0)
/-- The output stripe of a point of the second hop: `48 - t`. -/
theorem stripe5 : ∀ t : Fin cfg0.N, 24 ≤ t.val → win0_5.index t (0 : Fin 2) = 48 - t.val ∧ win0_5.index t (1 : Fin 2) = 0 :=
  (by decide +kernel : ∀ t : Fin grid0.N, 24 ≤ t.val → win0_5.index t (0 : Fin 2) = 48 - t.val ∧ win0_5.index t (1 : Fin 2) = 0)
/-- The whole-array windows sit at block (0, 0) throughout. -/
theorem block1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem block2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem block3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem block4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- Every output stripe is some point's of the second hop. -/
theorem stripe5_onto : ∀ q : Fin 25, ∃ t : Fin cfg0.N, 24 ≤ t.val ∧ win0_5.index t (0 : Fin 2) = q.val ∧ win0_5.index t (1 : Fin 2) = 0 :=
  (by decide +kernel : ∀ q : Fin 25, ∃ t : Fin grid0.N, 24 ≤ t.val ∧ win0_5.index t (0 : Fin 2) = q.val ∧ win0_5.index t (1 : Fin 2) = 0)

end Cert.KernelIdeal.Body

end
-- ==== Proof.IdealRuns.lean ====
import proofs.«133058_g18975165514648_fold_wed_m_529_27_alg».proof.Proof.IdealGrid
import proofs.«133058_g18975165514648_fold_wed_m_529_27_alg».proof.Proof.Gen.KernelIdeal.Skeleton
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The kernel body, case by case

The body has three conditionals on the grid position `t` (49 points):
* at `t = 0` it stores `f = seq · Wᵀ` (payload `k0_pay1`) over the whole first scratch;
* at `t < 25` it stores the slab `adj[400t .. 400t+400, :] · f` (payload `k0_pay2`) into rows
  `400t .. 400t+400` of the second scratch;
* at `24 ≤ t` it loads the whole second scratch `h` and stores
  `prelu (adj-block · h + bias)` (payload `k0_pay3`) over the whole output block.
The grid meets four combinations. For each one the body's triple is stated below with every buffer it
is handed at NAMED contents, and the lists of stores each written buffer ends with are found by the
symbolic run; the lemmas after each run say what those lists are, in terms of the payloads applied to
the named contents. Everything here holds at any float instance. -/

/-! ## `t = 0`: the first product and the first slab -/

set_option maxHeartbeats 1000000 in
/-- The body at the first point. The first scratch is handed over at anything and ends with the stores `L7`;
    the second is handed over at `xs1` and ends with the stores `L8` over it; the output buffer is not touched. -/
noncomputable def runFirst (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : condFirst i) (hc1 : condHop1 i) (hc2 : ¬condHop2 i)
    (x0 : Vec F S400x10000 .f32) (x1 : Vec F S10000x128 .f32) (x2 : Vec F S128x128 .f32) (x3 : Vec F S1x128 .f32) (x4 : Vec F S1x1 .f32) (y5 : Vec F S400x128 .f32) (xs1 : Vec F S10000x128 .f32) :
    Σ' (L7 : List (View.Piece (Elt F) S10000x128 .f32)) (L8 : List (View.Piece (Elt F) S10000x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ (∃ d, owns (c : Thread nD τ) arg7 fullShare d) ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ (∃ f, arg7.view.loc (c : Thread nD τ) ↦[arg7.view.set]{fullShare} arg7.view.writes (Elt F) f L7) ∗ (∃ f, ⌜arg8.view.read (Elt F) f = xs1⌝ ∗ arg8.view.loc (c : Thread nD τ) ↦[arg8.view.set]{fullShare} arg8.view.writes (Elt F) f L8)) -∗ K ⟨⟩))
          ⊢ wp frame (wpE (defs₀ (F := F)) Variants.none c none) E (cc0__gcn_kern i arg1 harg1 arg2 harg2 arg3 harg3 arg4 harg4 arg5 harg5 arg6 harg6 arg7 harg7 arg8 harg8) K := by
  refine ⟨?_, ?_, fun E K => ?run⟩
  case run =>
    simp only [cc0__gcn_kern_eq_skeleton]; unfold cc0__gcn_kern_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact hf5
      iexact H5
    isplitl [HS0]; · iexists _; iexact HS0
    iexists _; isplitr; · ipureintro; exact hfs1
    iexact HS1

/-- The first scratch's one store: the whole buffer, `f` of the two loaded operands. -/
theorem runFirst_f (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : condFirst i) (hc1 : condHop1 i) (hc2 : ¬condHop2 i)
    (x0 : Vec F S400x10000 .f32) (x1 : Vec F S10000x128 .f32) (x2 : Vec F S128x128 .f32) (x3 : Vec F S1x128 .f32) (x4 : Vec F S1x1 .f32) (y5 : Vec F S400x128 .f32) (xs1 : Vec F S10000x128 .f32) :
    (runFirst c i arg1 harg1 arg2 harg2 arg3 harg3 arg4 harg4 arg5 harg5 arg6 harg6 arg7 harg7 arg8 harg8 hc0 hc1 hc2 x0 x1 x2 x3 x4 y5 xs1).1
      = [⟨Rect.unit (s := S10000x128) ![0, 0] S10000x128.size inb_S10000x128_S10000x128_0_0, k0_pay1 x1 x2⟩] := by
  unfold runFirst
  dsimp only
  sl_unfold_words
  simp only [View.readAt_eq_ld, harg2.read_unread, harg3.read_unread, View.ld_unit_zero (S := S10000x128) zero2, View.ld_unit_zero (S := S128x128) zero2]
  try rfl

/-- The second scratch's one store: rows `400 t ..`, the slab product of the adjacency block with that `f`
    (read back from the first scratch after its store). -/
theorem runFirst_h (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : condFirst i) (hc1 : condHop1 i) (hc2 : ¬condHop2 i)
    (x0 : Vec F S400x10000 .f32) (x1 : Vec F S10000x128 .f32) (x2 : Vec F S128x128 .f32) (x3 : Vec F S1x128 .f32) (x4 : Vec F S1x1 .f32) (y5 : Vec F S400x128 .f32) (xs1 : Vec F S10000x128 .f32) :
    (runFirst c i arg1 harg1 arg2 harg2 arg3 harg3 arg4 harg4 arg5 harg5 arg6 harg6 arg7 harg7 arg8 harg8 hc0 hc1 hc2 x0 x1 x2 x3 x4 y5 xs1).2.1
      = [⟨Rect.unit (s := S10000x128) (k0_off1 i) S400x128.size (k0_off1_inb i hc1), k0_pay2 x0 (k0_pay1 x1 x2)⟩] := by
  unfold runFirst
  dsimp only
  sl_unfold_run_names
  simp only [View.readCov_unit_zero (S := S10000x128) _ zero2, View.readAt_eq_ld, harg1.read_unread, harg2.read_unread, harg3.read_unread, View.ld_unit_zero (S := S10000x128) zero2, View.ld_unit_zero (S := S128x128) zero2, View.ld_unit_zero (S := S400x10000) zero2]
  try rfl

/-! ## `0 < t < 24`: a slab -/

set_option maxHeartbeats 1000000 in
/-- The body at a point of the first hop after the first: the first scratch at `xs0` is read, the second at `xs1`
    takes one slab store, the output buffer is not touched. -/
noncomputable def runSlab (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : ¬condFirst i) (hc1 : condHop1 i) (hc2 : ¬condHop2 i)
    (x0 : Vec F S400x10000 .f32) (x1 : Vec F S10000x128 .f32) (x2 : Vec F S128x128 .f32) (x3 : Vec F S1x128 .f32) (x4 : Vec F S1x1 .f32) (y5 : Vec F S400x128 .f32) (xs0 : Vec F S10000x128 .f32) (xs1 : Vec F S10000x128 .f32) :
    Σ' (L8 : List (View.Piece (Elt F) S10000x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare xs0 ∗ (∃ f, ⌜arg8.view.read (Elt F) f = xs1⌝ ∗ arg8.view.loc (c : Thread nD τ) ↦[arg8.view.set]{fullShare} arg8.view.writes (Elt F) f L8)) -∗ K ⟨⟩))
          ⊢ wp frame (wpE (defs₀ (F := F)) Variants.none c none) E (cc0__gcn_kern i arg1 harg1 arg2 harg2 arg3 harg3 arg4 harg4 arg5 harg5 arg6 harg6 arg7 harg7 arg8 harg8) K := by
  refine ⟨?_, fun E K => ?run⟩
  case run =>
    simp only [cc0__gcn_kern_eq_skeleton]; unfold cc0__gcn_kern_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact hf5
      iexact H5
    isplitl [HS0]
    · iexists _; isplitr; · ipureintro; exact harg7.read_unread _
      iexact HS0
    iexists _; isplitr; · ipureintro; exact hfs1
    iexact HS1

/-- Its one store: rows `400 t ..`, the slab product of the adjacency block with the first scratch's contents. -/
theorem runSlab_h (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : ¬condFirst i) (hc1 : condHop1 i) (hc2 : ¬condHop2 i)
    (x0 : Vec F S400x10000 .f32) (x1 : Vec F S10000x128 .f32) (x2 : Vec F S128x128 .f32) (x3 : Vec F S1x128 .f32) (x4 : Vec F S1x1 .f32) (y5 : Vec F S400x128 .f32) (xs0 : Vec F S10000x128 .f32) (xs1 : Vec F S10000x128 .f32) :
    (runSlab c i arg1 harg1 arg2 harg2 arg3 harg3 arg4 harg4 arg5 harg5 arg6 harg6 arg7 harg7 arg8 harg8 hc0 hc1 hc2 x0 x1 x2 x3 x4 y5 xs0 xs1).1
      = [⟨Rect.unit (s := S10000x128) (k0_off1 i) S400x128.size (k0_off1_inb i hc1), k0_pay2 x0 xs0⟩] := by
  unfold runSlab
  dsimp only
  sl_unfold_words
  simp only [View.readAt_eq_ld, harg1.read_unread, harg7.read_unread, View.ld_unit_zero (S := S10000x128) zero2, View.ld_unit_zero (S := S400x10000) zero2]
  try rfl

/-! ## `t = 24`: the last slab, then the first output block -/

set_option maxHeartbeats 1000000 in
/-- The body at the point where the two hops meet: the last slab store into the second scratch, then the whole of it
    read back for the output block. The output buffer is handed over at anything and ends with the stores `L6`. -/
noncomputable def runMeet (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : ¬condFirst i) (hc1 : condHop1 i) (hc2 : condHop2 i)
    (x0 : Vec F S400x10000 .f32) (x1 : Vec F S10000x128 .f32) (x2 : Vec F S128x128 .f32) (x3 : Vec F S1x128 .f32) (x4 : Vec F S1x1 .f32) (xs0 : Vec F S10000x128 .f32) (xs1 : Vec F S10000x128 .f32) :
    Σ' (L8 : List (View.Piece (Elt F) S10000x128 .f32)) (L6 : List (View.Piece (Elt F) S400x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L6) ∗ owns (c : Thread nD τ) arg7 fullShare xs0 ∗ (∃ f, ⌜arg8.view.read (Elt F) f = xs1⌝ ∗ arg8.view.loc (c : Thread nD τ) ↦[arg8.view.set]{fullShare} arg8.view.writes (Elt F) f L8)) -∗ K ⟨⟩))
          ⊢ wp frame (wpE (defs₀ (F := F)) Variants.none c none) E (cc0__gcn_kern i arg1 harg1 arg2 harg2 arg3 harg3 arg4 harg4 arg5 harg5 arg6 harg6 arg7 harg7 arg8 harg8) K := by
  refine ⟨?_, ?_, fun E K => ?run⟩
  case run =>
    simp only [cc0__gcn_kern_eq_skeleton]; unfold cc0__gcn_kern_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    iexists _; isplitr; · ipureintro; exact harg8.read_unread _
    iexact HS1

/-- The slab store, as at the earlier points. -/
theorem runMeet_h (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : ¬condFirst i) (hc1 : condHop1 i) (hc2 : condHop2 i)
    (x0 : Vec F S400x10000 .f32) (x1 : Vec F S10000x128 .f32) (x2 : Vec F S128x128 .f32) (x3 : Vec F S1x128 .f32) (x4 : Vec F S1x1 .f32) (xs0 : Vec F S10000x128 .f32) (xs1 : Vec F S10000x128 .f32) :
    (runMeet c i arg1 harg1 arg2 harg2 arg3 harg3 arg4 harg4 arg5 harg5 arg6 harg6 arg7 harg7 arg8 harg8 hc0 hc1 hc2 x0 x1 x2 x3 x4 xs0 xs1).1
      = [⟨Rect.unit (s := S10000x128) (k0_off1 i) S400x128.size (k0_off1_inb i hc1), k0_pay2 x0 xs0⟩] := by
  unfold runMeet
  dsimp only
  sl_unfold_words
  simp only [View.readAt_eq_ld, harg1.read_unread, harg7.read_unread, View.ld_unit_zero (S := S10000x128) zero2, View.ld_unit_zero (S := S400x10000) zero2]
  try rfl

/-- The output block's one store: the whole block, the output payload of the adjacency block, of the second scratch
    as the slab store left it (read through the scratch's own view), of the bias row and of the slope. -/
theorem runMeet_o (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : ¬condFirst i) (hc1 : condHop1 i) (hc2 : condHop2 i)
    (x0 : Vec F S400x10000 .f32) (x1 : Vec F S10000x128 .f32) (x2 : Vec F S128x128 .f32) (x3 : Vec F S1x128 .f32) (x4 : Vec F S1x1 .f32) (xs0 : Vec F S10000x128 .f32) (xs1 : Vec F S10000x128 .f32) :
    (runMeet c i arg1 harg1 arg2 harg2 arg3 harg3 arg4 harg4 arg5 harg5 arg6 harg6 arg7 harg7 arg8 harg8 hc0 hc1 hc2 x0 x1 x2 x3 x4 xs0 xs1).2.1
      = [⟨Rect.unit (s := S400x128) ![0, 0] S400x128.size inb_S400x128_S400x128_0_0, k0_pay3 x0 (arg8.view.read (Elt F) (arg8.view.writes (Elt F) (harg8.unread xs1) [⟨Rect.unit (s := S10000x128) (k0_off1 i) S400x128.size (k0_off1_inb i hc1), k0_pay2 x0 xs0⟩])) x3 x4⟩] := by
  unfold runMeet
  dsimp only
  sl_unfold_run_names
  simp only [View.readAt_eq_ld, harg1.read_unread, harg4.read_unread, harg5.read_unread, harg7.read_unread, View.ld_unit_zero (S := S10000x128) zero2, View.ld_unit_zero (S := S400x10000) zero2, View.ld_unit_zero (S := S1x128) zero2, View.ld_unit_zero (S := S1x1) zero2]
  try rfl

/-! ## `24 < t`: an output block -/

set_option maxHeartbeats 1000000 in
/-- The body at a point of the second hop after the meeting point: both scratch buffers are only read. -/
noncomputable def runOut (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : ¬condFirst i) (hc1 : ¬condHop1 i) (hc2 : condHop2 i)
    (x0 : Vec F S400x10000 .f32) (x1 : Vec F S10000x128 .f32) (x2 : Vec F S128x128 .f32) (x3 : Vec F S1x128 .f32) (x4 : Vec F S1x1 .f32) (xs0 : Vec F S10000x128 .f32) (xs1 : Vec F S10000x128 .f32) :
    Σ' (L6 : List (View.Piece (Elt F) S400x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L6) ∗ owns (c : Thread nD τ) arg7 fullShare xs0 ∗ owns (c : Thread nD τ) arg8 fullShare xs1) -∗ K ⟨⟩))
          ⊢ wp frame (wpE (defs₀ (F := F)) Variants.none c none) E (cc0__gcn_kern i arg1 harg1 arg2 harg2 arg3 harg3 arg4 harg4 arg5 harg5 arg6 harg6 arg7 harg7 arg8 harg8) K := by
  refine ⟨?_, fun E K => ?run⟩
  case run =>
    simp only [cc0__gcn_kern_eq_skeleton]; unfold cc0__gcn_kern_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    iexists _; isplitr; · ipureintro; exact harg8.read_unread _
    iexact HS1

/-- The output block's one store: the output payload of the adjacency block, the second scratch's contents, the bias
    row and the slope. -/
theorem runOut_o (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (hc0 : ¬condFirst i) (hc1 : ¬condHop1 i) (hc2 : condHop2 i)
    (x0 : Vec F S400x10000 .f32) (x1 : Vec F S10000x128 .f32) (x2 : Vec F S128x128 .f32) (x3 : Vec F S1x128 .f32) (x4 : Vec F S1x1 .f32) (xs0 : Vec F S10000x128 .f32) (xs1 : Vec F S10000x128 .f32) :
    (runOut c i arg1 harg1 arg2 harg2 arg3 harg3 arg4 harg4 arg5 harg5 arg6 harg6 arg7 harg7 arg8 harg8 hc0 hc1 hc2 x0 x1 x2 x3 x4 xs0 xs1).1
      = [⟨Rect.unit (s := S400x128) ![0, 0] S400x128.size inb_S400x128_S400x128_0_0, k0_pay3 x0 xs1 x3 x4⟩] := by
  unfold runOut
  dsimp only
  sl_unfold_words
  simp only [View.readAt_eq_ld, harg1.read_unread, harg4.read_unread, harg5.read_unread, harg8.read_unread, View.ld_unit_zero (S := S10000x128) zero2, View.ld_unit_zero (S := S400x10000) zero2, View.ld_unit_zero (S := S1x128) zero2, View.ld_unit_zero (S := S1x1) zero2]
  try rfl

end Cert.KernelIdeal.Body

end
-- ==== Proof.IdealTriples.lean ====
import proofs.«133058_g18975165514648_fold_wed_m_529_27_alg».proof.Proof.IdealRuns
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The four triples, read

Each case's triple restated with every buffer owned at a named function before and after. A store over a whole buffer
leaves its payload; a slab store into rows `o .. o + 400` of the second scratch leaves contents `Z` that are the
payload on those rows and the old contents on every other row (`SlabAt`). -/

attribute [local irreducible] runFirst runSlab runMeet runOut

/-- `Z` is `old` with rows `o .. o + 400` replaced by the 400-row block `w`. -/
def SlabAt (o : ℕ) (old : Vec F S10000x128 .f32) (w : Vec F S400x128 .f32) (Z : Vec F S10000x128 .f32) : Prop :=
  (∀ (y : S10000x128.Idx) (x : S400x128.Idx), (y (0 : Fin 2)).val = o + (x (0 : Fin 2)).val → (y (1 : Fin 2)).val = (x (1 : Fin 2)).val → Z y = w x)
  ∧ (∀ y : S10000x128.Idx, ((y (0 : Fin 2)).val < o ∨ o + 400 ≤ (y (0 : Fin 2)).val) → Z y = old y)

/-- One store of 400 whole rows at row `o`, read back through the buffer's view. -/
theorem slab_read (M : Memref sig .tc .vmem S10000x128 .f32) (f : M.view.ty.Contents (Elt F)) (off : Fin 2 → ℕ)
    (inb : ∀ a, off a + S400x128.size a ≤ S10000x128.size a) (w : Vec F S400x128 .f32) (o : ℕ) (hoff : off = ![o, 0]) :
    SlabAt o (M.view.read (Elt F) f) w
      (M.view.read (Elt F) (M.view.writes (Elt F) f [⟨Rect.unit (s := S10000x128) off S400x128.size inb, w⟩])) :=
  ⟨fun y x h0 h1 => View.read_writes_cons_rows_of_mem M.view f inb w [] y x hoff h0 h1,
   fun y h => View.read_writes_cons_rows_of_not_mem M.view f inb w [] y hoff rfl h⟩

/-- One store over a whole buffer leaves its payload, whatever was there. -/
theorem owns_of_whole_store {S : Shape} (c : Dev nD) (M : Memref sig .tc .vmem S .f32) {off : Fin S.rank → ℕ} (h : off = fun _ => 0)
    (inb : ∀ a, off a + S.size a ≤ S.size a) (w : S.Idx → Elt F .f32) :
    iprop(∃ f, M.view.loc (c : Thread nD τ) ↦[M.view.set]{fullShare} M.view.writes (Elt F) f [⟨Rect.unit off S.size inb, w⟩])
      ⊢ (owns (c : Thread nD τ) M fullShare w : sProp 𝕄) := by
  iintro ⟨%f, H⟩
  unfold owns; iexists _; isplitr; swap; · iexact H
  ipureintro
  subst h
  funext y
  exact View.read_writes_cons_unit_of_mem M.view f inb w [] y y rfl (fun a => (Nat.zero_add _).symm)

variable (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole) (o : ℕ) (ho : k0_off1 i = ![o, 0])
  (x0 : Vec F S400x10000 .f32) (x1 : Vec F S10000x128 .f32) (x2 : Vec F S128x128 .f32) (x3 : Vec F S1x128 .f32) (x4 : Vec F S1x1 .f32)

include ho in
/-- `t = 0`. -/
theorem tripleFirst (hc0 : condFirst i) (hc1 : condHop1 i) (hc2 : ¬condHop2 i) (y5 : Vec F S400x128 .f32) (xs1 : Vec F S10000x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ (∃ d, owns (c : Thread nD τ) arg7 fullShare d) ∗ owns (c : Thread nD τ) arg8 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare (k0_pay1 x1 x2) ∗ (∃ Z, ⌜SlabAt o xs1 (k0_pay2 x0 (k0_pay1 x1 x2)) Z⌝ ∗ owns (c : Thread nD τ) arg8 fullShare Z)) -∗ K ⟨⟩))
      ⊢ wp frame (wpE (defs₀ (F := F)) Variants.none c none) E (cc0__gcn_kern i arg1 harg1 arg2 harg2 arg3 harg3 arg4 harg4 arg5 harg5 arg6 harg6 arg7 harg7 arg8 harg8) K := by
  have e7 := runFirst_f c i arg1 harg1 arg2 harg2 arg3 harg3 arg4 harg4 arg5 harg5 arg6 harg6 arg7 harg7 arg8 harg8 hc0 hc1 hc2 x0 x1 x2 x3 x4 y5 xs1
  have e8 := runFirst_h c i arg1 harg1 arg2 harg2 arg3 harg3 arg4 harg4 arg5 harg5 arg6 harg6 arg7 harg7 arg8 harg8 hc0 hc1 hc2 x0 x1 x2 x3 x4 y5 xs1
  rcases hr : runFirst c i arg1 harg1 arg2 harg2 arg3 harg3 arg4 harg4 arg5 harg5 arg6 harg6 arg7 harg7 arg8 harg8 hc0 hc1 hc2 x0 x1 x2 x3 x4 y5 xs1 with ⟨L7, L8, key⟩
  rw [hr] at e7 e8
  replace e7 : L7 = _ := e7
  replace e8 : L8 = _ := e8
  subst e7 e8
  refine BIBase.Entails.trans ?_ (key E K)
  iintro ⟨H0, H1, H2, H3, H4, H5, HS0, HS1, Hk⟩
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, ⟨%f, %hf, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [HS0]; · iapply (owns_of_whole_store c arg7 zero2 _ _); iexact HS0
  iexists _; isplitr
  · ipureintro
    have h := slab_read arg8 f (k0_off1 i) (k0_off1_inb i hc1) (k0_pay2 x0 (k0_pay1 x1 x2)) o ho
    rw [hf] at h; exact h
  iapply (owns_intro (c : Thread nD τ) arg8 fullShare _); iexact HS1

include ho in
/-- `0 < t < 24`. -/
theorem tripleSlab (hc0 : ¬condFirst i) (hc1 : condHop1 i) (hc2 : ¬condHop2 i) (y5 : Vec F S400x128 .f32)
    (xs0 : Vec F S10000x128 .f32) (xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare xs0 ∗ owns (c : Thread nD τ) arg8 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare xs0 ∗ (∃ Z, ⌜SlabAt o xs1 (k0_pay2 x0 xs0) Z⌝ ∗ owns (c : Thread nD τ) arg8 fullShare Z)) -∗ K ⟨⟩))
      ⊢ wp frame (wpE (defs₀ (F := F)) Variants.none c none) E (cc0__gcn_kern i arg1 harg1 arg2 harg2 arg3 harg3 arg4 harg4 arg5 harg5 arg6 harg6 arg7 harg7 arg8 harg8) K := by
  have e8 := runSlab_h c i arg1 harg1 arg2 harg2 arg3 harg3 arg4 harg4 arg5 harg5 arg6 harg6 arg7 harg7 arg8 harg8 hc0 hc1 hc2 x0 x1 x2 x3 x4 y5 xs0 xs1
  rcases hr : runSlab c i arg1 harg1 arg2 harg2 arg3 harg3 arg4 harg4 arg5 harg5 arg6 harg6 arg7 harg7 arg8 harg8 hc0 hc1 hc2 x0 x1 x2 x3 x4 y5 xs0 xs1 with ⟨L8, key⟩
  rw [hr] at e8
  replace e8 : L8 = _ := e8
  subst e8
  refine BIBase.Entails.trans ?_ (key E K)
  iintro ⟨H0, H1, H2, H3, H4, H5, HS0, HS1, Hk⟩
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, ⟨%f, %hf, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [HS0]; · iexact HS0
  iexists _; isplitr
  · ipureintro
    have h := slab_read arg8 f (k0_off1 i) (k0_off1_inb i hc1) (k0_pay2 x0 xs0) o ho
    rw [hf] at h; exact h
  iapply (owns_intro (c : Thread nD τ) arg8 fullShare _); iexact HS1

include ho in
/-- `t = 24`: the output payload reads the second scratch as the slab store has just left it. -/
theorem tripleMeet (hc0 : ¬condFirst i) (hc1 : condHop1 i) (hc2 : condHop2 i)
    (xs0 : Vec F S10000x128 .f32) (xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare xs0 ∗ (∃ Z, ⌜SlabAt o xs1 (k0_pay2 x0 xs0) Z⌝ ∗ owns (c : Thread nD τ) arg6 fullShare (k0_pay3 x0 Z x3 x4) ∗ owns (c : Thread nD τ) arg8 fullShare Z)) -∗ K ⟨⟩))
      ⊢ wp frame (wpE (defs₀ (F := F)) Variants.none c none) E (cc0__gcn_kern i arg1 harg1 arg2 harg2 arg3 harg3 arg4 harg4 arg5 harg5 arg6 harg6 arg7 harg7 arg8 harg8) K := by
  have e8 := runMeet_h c i arg1 harg1 arg2 harg2 arg3 harg3 arg4 harg4 arg5 harg5 arg6 harg6 arg7 harg7 arg8 harg8 hc0 hc1 hc2 x0 x1 x2 x3 x4 xs0 xs1
  have e6 := runMeet_o c i arg1 harg1 arg2 harg2 arg3 harg3 arg4 harg4 arg5 harg5 arg6 harg6 arg7 harg7 arg8 harg8 hc0 hc1 hc2 x0 x1 x2 x3 x4 xs0 xs1
  rcases hr : runMeet c i arg1 harg1 arg2 harg2 arg3 harg3 arg4 harg4 arg5 harg5 arg6 harg6 arg7 harg7 arg8 harg8 hc0 hc1 hc2 x0 x1 x2 x3 x4 xs0 xs1 with ⟨L8, L6, key⟩
  rw [hr] at e8 e6
  replace e8 : L8 = _ := e8
  replace e6 : L6 = _ := e6
  subst e8 e6
  refine BIBase.Entails.trans ?_ (key E K)
  iintro ⟨H0, H1, H2, H3, H4, H5, HS0, HS1, Hk⟩
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, ⟨%f, %hf, HS1⟩⟩
  obtain rfl := harg8.eq_unread hf
  iapply Hk
  isplitl [H0]; · iexact H0
  isplitl [H1]; · iexact H1
  isplitl [H2]; · iexact H2
  isplitl [H3]; · iexact H3
  isplitl [H4]; · iexact H4
  isplitl [HS0]; · iexact HS0
  iexists _; isplitr
  · ipureintro
    have h := slab_read arg8 (harg8.unread xs1) (k0_off1 i) (k0_off1_inb i hc1) (k0_pay2 x0 xs0) o ho
    rw [harg8.read_unread xs1] at h; exact h
  isplitl [H5]; · iapply (owns_of_whole_store c arg6 zero2 _ _); iexact H5
  iapply (owns_intro (c : Thread nD τ) arg8 fullShare _); iexact HS1

/-- `24 < t`. -/
theorem tripleOut (hc0 : ¬condFirst i) (hc1 : ¬condHop1 i) (hc2 : condHop2 i)
    (xs0 : Vec F S10000x128 .f32) (xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 x0 xs1 x3 x4) ∗ owns (c : Thread nD τ) arg7 fullShare xs0 ∗ owns (c : Thread nD τ) arg8 fullShare xs1) -∗ K ⟨⟩))
      ⊢ wp frame (wpE (defs₀ (F := F)) Variants.none c none) E (cc0__gcn_kern i arg1 harg1 arg2 harg2 arg3 harg3 arg4 harg4 arg5 harg5 arg6 harg6 arg7 harg7 arg8 harg8) K := by
  have e6 := runOut_o c i arg1 harg1 arg2 harg2 arg3 harg3 arg4 harg4 arg5 harg5 arg6 harg6 arg7 harg7 arg8 harg8 hc0 hc1 hc2 x0 x1 x2 x3 x4 xs0 xs1
  rcases hr : runOut c i arg1 harg1 arg2 harg2 arg3 harg3 arg4 harg4 arg5 harg5 arg6 harg6 arg7 harg7 arg8 harg8 hc0 hc1 hc2 x0 x1 x2 x3 x4 xs0 xs1 with ⟨L6, key⟩
  rw [hr] at e6
  replace e6 : L6 = _ := e6
  subst e6
  refine BIBase.Entails.trans ?_ (key E K)
  iintro ⟨H0, H1, H2, H3, H4, H5, HS0, HS1, Hk⟩
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  iapply Hk
  isplitl [H0]; · iexact H0
  isplitl [H1]; · iexact H1
  isplitl [H2]; · iexact H2
  isplitl [H3]; · iexact H3
  isplitl [H4]; · iexact H4
  isplitl [H5]; · iapply (owns_of_whole_store c arg6 zero2 _ _); iexact H5
  isplitl [HS0]; · iexact HS0
  iexact HS1

end Cert.KernelIdeal.Body

end
-- ==== Proof.IdealFrame.lean ====
import proofs.«133058_g18975165514648_fold_wed_m_529_27_alg».proof.Proof.IdealTriples
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx (ix2)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole grid

What the two scratch buffers hold between points, the proof data of the pipeline, the body obligation at every point
by cases on the schedule, and the run. Holds at any float instance. -/

/-- Each window's current staging memref at point `t`, as the pipeline passes it, and its wholeness. -/
abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x128 .f32 := win0_5.stage (cfg0.slots t 5)
abbrev hs5 (t : Fin cfg0.N) : (ms5 t).IsWhole := hstage0_5 ((cfg0.slots t 5).cast nbuf0_5)
/-- The two scratch operands: the first holds `f`, the second the first hop's result. -/
abbrev scA : Memref sig .tc .vmem S10000x128 .f32 := Memref.whole cc0_scratch0
abbrev scB : Memref sig .tc .vmem S10000x128 .f32 := Memref.whole cc0_scratch1

/-- What the launch hands the region beside the windows: both scratch buffers at anything, the generator register. -/
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

/-! ## The values -/

theorem N49 : cfg0.N = 49 := N_0

/-- The first point. -/
def t0 : Fin cfg0.N := ⟨0, by rw [N49]; omega⟩

/-- `f`: the first product, of the two whole-array windows' blocks. -/
def fVal (c : Dev nD) : Vec F S10000x128 .f32 := k0_pay1 (iblk m c 1 t0) (iblk m c 2 t0)

/-- The slab a point of the first hop stores: its adjacency block times `f`. -/
def hBlk (c : Dev nD) (t : Fin cfg0.N) : Vec F S400x128 .f32 := k0_pay2 (iblk m c 0 t) (fVal m c)

/-- The first hop's whole result: row `r` is row `r % 400` of the slab of point `r / 400`. -/
def hAll (c : Dev nD) : Vec F S10000x128 .f32 := fun y =>
  hBlk m c ⟨(y (0 : Fin 2)).val / 400, by have := ValueIdx.idx2_lt0 y; rw [N49]; omega⟩
    (ix2 (⟨(y (0 : Fin 2)).val % 400, Nat.mod_lt _ (by omega)⟩ : Fin 400) (⟨(y (1 : Fin 2)).val, ValueIdx.idx2_lt1 y⟩ : Fin 128))

/-- The output block a point of the second hop stores. -/
def outBlk (c : Dev nD) (t : Fin cfg0.N) : Vec F S400x128 .f32 := k0_pay3 (iblk m c 0 t) (hAll m c) (iblk m c 3 t) (iblk m c 4 t)

theorem hBlk_congr (c : Dev nD) (t t' : Fin cfg0.N) (p p' : Fin 400) (b b' : Fin 128) (ht : t.val = t'.val) (hp : p.val = p'.val) (hb : b.val = b'.val) :
    hBlk m c t (ix2 p b) = hBlk m c t' (ix2 p' b') := by
  obtain rfl := Fin.ext ht; obtain rfl := Fin.ext hp; obtain rfl := Fin.ext hb; rfl

/-- The second scratch holds the first hop's result on its first `400 n` rows. -/
def Filled (c : Dev nD) (n : ℕ) (d : Vec F S10000x128 .f32) : Prop :=
  ∀ y : S10000x128.Idx, (y (0 : Fin 2)).val < 400 * n → d y = hAll m c y

/-- Storing point `t`'s slab at row `400 t` over contents filled up to there fills 400 rows more. -/
theorem Filled.step (c : Dev nD) (t : Fin cfg0.N) (ht : t.val < 25) (d Z : Vec F S10000x128 .f32)
    (hF : Filled m c t.val d) (hZ : SlabAt (400 * t.val) d (hBlk m c t) Z) : Filled m c (t.val + 1) Z := by
  intro y hy
  have hy0 := ValueIdx.idx2_lt0 y
  have hy1 := ValueIdx.idx2_lt1 y
  by_cases h : (y (0 : Fin 2)).val < 400 * t.val
  · rw [hZ.2 y (Or.inl h)]; exact hF y h
  · rw [hZ.1 y (ix2 (⟨(y (0 : Fin 2)).val - 400 * t.val, by omega⟩ : Fin 400) (⟨(y (1 : Fin 2)).val, hy1⟩ : Fin 128))
      (by show (y (0 : Fin 2)).val = 400 * t.val + ((y (0 : Fin 2)).val - 400 * t.val); omega) rfl]
    unfold hAll
    exact hBlk_congr m c _ _ _ _ _ _ (by show t.val = (y (0 : Fin 2)).val / 400; omega)
      (by show (y (0 : Fin 2)).val - 400 * t.val = (y (0 : Fin 2)).val % 400; omega) rfl

/-- All 25 slabs stored: the second scratch IS the first hop's result. -/
theorem Filled.all (c : Dev nD) (n : ℕ) (hn : 25 ≤ n) (d : Vec F S10000x128 .f32) (hF : Filled m c n d) : d = hAll m c :=
  funext fun y => hF y (by have := ValueIdx.idx2_lt0 y; omega)

theorem Filled.of_all (c : Dev nD) (n : ℕ) : Filled m c n (hAll m c) := fun _ _ => rfl

theorem Filled.zero (c : Dev nD) (d : Vec F S10000x128 .f32) : Filled m c 0 d := fun y hy => by omega

/-! ## The invariant between points -/

/-- Before point `n`: at the start what the launch hands over; afterwards the first scratch at `f`, the second at
    contents filled on their first `400 n` rows, the generator register at some state. -/
def PhiS (c : Dev nD) : (n : ℕ) → n ≤ cfg0.N → sProp 𝕄
  | 0, _ => Pipeline.ΦA spec0 c
  | n + 1, _ => iprop(iprop(owns (c : Thread nD τ) scA fullShare (fVal m c) ∗ (∃ d, ⌜Filled m c (n + 1) d⌝ ∗ owns (c : Thread nD τ) scB fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scA fullShare (fVal m c) ∗ (∃ d, ⌜Filled m c (n + 1) d⌝ ∗ owns (c : Thread nD τ) scB fullShare d)) ∗ (∃ r, prngReg c r)) := rfl

theorem PhiS_pos (c : Dev nD) (n : ℕ) (h : n ≤ cfg0.N) (hz : n ≠ 0) :
    PhiS m c n h = iprop(iprop(owns (c : Thread nD τ) scA fullShare (fVal m c) ∗ (∃ d, ⌜Filled m c n d⌝ ∗ owns (c : Thread nD τ) scB fullShare d)) ∗ (∃ r, prngReg c r)) := by
  cases n with
  | zero => exact absurd rfl hz
  | succ n => rfl

/-! ## The pipeline's proof data -/

/-- The arrays as the region finds them; after the body each input's buffer at its block, the output's at the point's
    output block; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outBlk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The whole-array windows' blocks do not move: at every point they are the first point's. -/
theorem iblk1_const (c : Dev nD) (t : Fin cfg0.N) : iblk m c 1 t = iblk m c 1 t0 := by
  funext y
  show V m c main_arg0 (((cfg0.win 1).blk t).view.emb y) = V m c main_arg0 (((cfg0.win 1).blk t0).view.emb y)
  refine congrArg _ (funext fun a => Fin.ext ?_)
  obtain ⟨e0, e1⟩ := block1 t
  obtain ⟨z0, z1⟩ := block1 (t0 : Fin cfg0.N)
  match a with
  | ⟨0, _⟩ => show win0_1.index t (0 : Fin 2) * 10000 + 1 * (y 0).val = win0_1.index t0 (0 : Fin 2) * 10000 + 1 * (y 0).val; rw [e0, z0]
  | ⟨1, _⟩ => show win0_1.index t (1 : Fin 2) * 128 + 1 * (y 1).val = win0_1.index t0 (1 : Fin 2) * 128 + 1 * (y 1).val; rw [e1, z1]
theorem iblk2_const (c : Dev nD) (t : Fin cfg0.N) : iblk m c 2 t = iblk m c 2 t0 := by
  funext y
  show V m c main_arg2 (((cfg0.win 2).blk t).view.emb y) = V m c main_arg2 (((cfg0.win 2).blk t0).view.emb y)
  refine congrArg _ (funext fun a => Fin.ext ?_)
  obtain ⟨e0, e1⟩ := block2 t
  obtain ⟨z0, z1⟩ := block2 (t0 : Fin cfg0.N)
  match a with
  | ⟨0, _⟩ => show win0_2.index t (0 : Fin 2) * 128 + 1 * (y 0).val = win0_2.index t0 (0 : Fin 2) * 128 + 1 * (y 0).val; rw [e0, z0]
  | ⟨1, _⟩ => show win0_2.index t (1 : Fin 2) * 128 + 1 * (y 1).val = win0_2.index t0 (1 : Fin 2) * 128 + 1 * (y 1).val; rw [e1, z1]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- At a point before 24 the output buffer is handed back as it was found. -/
theorem leaves5_idle (c : Dev nD) (t : Fin cfg0.N) (h : t.val < 24) :
    (dats m 0 c).leavesExact 5 t = iprop(∃ d, owns (c : Thread nD τ) (ms5 t) fullShare ((dats m 0 c).before 5 t d)) :=
  (dats m 0 c).leavesExact_idle 5 t ((idle5_iff t).mpr h)
    (by rcases hb : (cfg0.win 5).flush t with _ | _
        · rfl
        · exact absurd ((flush5_iff t).mp hb) (by omega))

/-- From 24 on it is left at the point's output block. -/
theorem leaves5_live (c : Dev nD) (t : Fin cfg0.N) (h : 24 ≤ t.val) :
    (dats m 0 c).leavesExact 5 t = owns (c : Thread nD τ) (ms5 t) fullShare (outBlk m c t) := by
  have hi : cfg0.idle 5 (grid0.coords t) = false := by
    rcases hb : cfg0.idle 5 (grid0.coords t) with _ | _
    · rfl
    · exact absurd ((idle5_iff t).mp hb) (by omega)
  unfold Dat.leavesExact; rw [hi, after5]

set_option maxHeartbeats 6400000 in
/-- The body at any point, by the schedule's four cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 49 := lt_of_lt_of_eq t.isLt N49
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  by_cases hz : t.val = 0
  · -- the first point
    have h0 : condFirst (grid0.coords t) := (condFirst_iff t).mpr hz
    have h1 : condHop1 (grid0.coords t) := (condHop1_iff t).mpr (by omega)
    have h2 : ¬condHop2 (grid0.coords t) := fun h => absurd ((condHop2_iff t).mp h) (by omega)
    rw [leaves5_idle m c t (by omega)]
    rw [PhiS_castSucc m c t, PhiS_zero m c _ _ hz, PhiA_eq]
    iintro ⟨⟨⟨HS0, ⟨%d1, HS1⟩⟩, Hg⟩, Ho, ⟨%d0, H0⟩, ⟨%e1, H1⟩, ⟨%e2, H2⟩, ⟨%e3, H3⟩, ⟨%e4, H4⟩, ⟨%d5, H5⟩⟩
    iapply (tripleFirst c (grid0.coords t) (ms0 t) (hs0 t) (ms1 t) (hs1 t) (ms2 t) (hs2 t) (ms3 t) (hs3 t) (ms4 t) (hs4 t) (ms5 t) (hs5 t) scA (Memref.isWhole_whole _) scB (Memref.isWhole_whole _) (400 * t.val) (slabOff t (by omega)) (iblk m c 0 t) (iblk m c 1 t) (iblk m c 2 t) (iblk m c 3 t) (iblk m c 4 t) h0 h1 h2 ((dats m 0 c).before 5 t d5) d1 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, ⟨%Z, %hZ, HS1⟩⟩
    isplitl [HS0 HS1 Hg]
    · isplitl [HS0 HS1]
      · isplitl [HS0]
        · have ef : k0_pay1 (iblk m c 1 t) (iblk m c 2 t) = fVal m c := by unfold fVal; rw [iblk1_const m c t, iblk2_const m c t]
          rw [ef]; iexact HS0
        iexists Z; isplitr
        · ipureintro
          have ef : k0_pay2 (iblk m c 0 t) (k0_pay1 (iblk m c 1 t) (iblk m c 2 t)) = hBlk m c t := by
            unfold hBlk fVal; rw [iblk1_const m c t, iblk2_const m c t]
          rw [ef] at hZ
          exact Filled.step m c t (by omega) d1 Z (hz ▸ Filled.zero m c d1) hZ
        iexact HS1
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [PhiS_castSucc m c t, PhiS_pos m c _ _ hz]
    have h0 : ¬condFirst (grid0.coords t) := fun h => hz ((condFirst_iff t).mp h)
    by_cases hlt : t.val < 24
    · -- a slab point
      have h1 : condHop1 (grid0.coords t) := (condHop1_iff t).mpr (by omega)
      have h2 : ¬condHop2 (grid0.coords t) := fun h => absurd ((condHop2_iff t).mp h) (by omega)
      rw [leaves5_idle m c t hlt]
      iintro ⟨⟨⟨HS0, ⟨%d1, %hF, HS1⟩⟩, Hg⟩, Ho, ⟨%d0, H0⟩, ⟨%e1, H1⟩, ⟨%e2, H2⟩, ⟨%e3, H3⟩, ⟨%e4, H4⟩, ⟨%d5, H5⟩⟩
      iapply (tripleSlab c (grid0.coords t) (ms0 t) (hs0 t) (ms1 t) (hs1 t) (ms2 t) (hs2 t) (ms3 t) (hs3 t) (ms4 t) (hs4 t) (ms5 t) (hs5 t) scA (Memref.isWhole_whole _) scB (Memref.isWhole_whole _) (400 * t.val) (slabOff t (by omega)) (iblk m c 0 t) (iblk m c 1 t) (iblk m c 2 t) (iblk m c 3 t) (iblk m c 4 t) h0 h1 h2 ((dats m 0 c).before 5 t d5) (fVal m c) d1 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%Z, %hZ, HS1⟩⟩
      isplitl [HS0 HS1 Hg]
      · isplitl [HS0 HS1]
        · isplitl [HS0]; · iexact HS0
          iexists Z; isplitr
          · ipureintro; exact Filled.step m c t (by omega) d1 Z hF hZ
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · have h2 : condHop2 (grid0.coords t) := (condHop2_iff t).mpr (by omega)
      rw [leaves5_live m c t (by omega)]
      by_cases heq : t.val < 25
      · -- the meeting point
        have h1 : condHop1 (grid0.coords t) := (condHop1_iff t).mpr heq
        iintro ⟨⟨⟨HS0, ⟨%d1, %hF, HS1⟩⟩, Hg⟩, Ho, ⟨%d0, H0⟩, ⟨%e1, H1⟩, ⟨%e2, H2⟩, ⟨%e3, H3⟩, ⟨%e4, H4⟩, ⟨%d5, H5⟩⟩
        iapply (tripleMeet c (grid0.coords t) (ms0 t) (hs0 t) (ms1 t) (hs1 t) (ms2 t) (hs2 t) (ms3 t) (hs3 t) (ms4 t) (hs4 t) (ms5 t) (hs5 t) scA (Memref.isWhole_whole _) scB (Memref.isWhole_whole _) (400 * t.val) (slabOff t heq) (iblk m c 0 t) (iblk m c 1 t) (iblk m c 2 t) (iblk m c 3 t) (iblk m c 4 t) h0 h1 h2 (fVal m c) d1 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, HS0, ⟨%Z, %hZ, H5, HS1⟩⟩
        have hFZ : Filled m c (t.val + 1) Z := Filled.step m c t heq d1 Z hF hZ
        obtain rfl : Z = hAll m c := Filled.all m c _ (by omega) Z hFZ
        isplitl [HS0 HS1 Hg]
        · isplitl [HS0 HS1]
          · isplitl [HS0]; · iexact HS0
            iexists _; isplitr
            · ipureintro; exact hFZ
            iexact HS1
          iexact Hg
        isplitl [Ho]; · iexact Ho
        isplitl [H0]; · iexact H0
        isplitl [H1]; · iexact H1
        isplitl [H2]; · iexact H2
        isplitl [H3]; · iexact H3
        isplitl [H4]; · iexact H4
        iexact H5
      · -- an output point
        have h1 : ¬condHop1 (grid0.coords t) := fun h => heq ((condHop1_iff t).mp h)
        iintro ⟨⟨⟨HS0, ⟨%d1, %hF, HS1⟩⟩, Hg⟩, Ho, ⟨%d0, H0⟩, ⟨%e1, H1⟩, ⟨%e2, H2⟩, ⟨%e3, H3⟩, ⟨%e4, H4⟩, ⟨%d5, H5⟩⟩
        obtain rfl : d1 = hAll m c := Filled.all m c _ (by omega) d1 hF
        iapply (tripleOut c (grid0.coords t) (ms0 t) (hs0 t) (ms1 t) (hs1 t) (ms2 t) (hs2 t) (ms3 t) (hs3 t) (ms4 t) (hs4 t) (ms5 t) (hs5 t) scA (Memref.isWhole_whole _) scB (Memref.isWhole_whole _) (iblk m c 0 t) (iblk m c 1 t) (iblk m c 2 t) (iblk m c 3 t) (iblk m c 4 t) h0 h1 h2 (fVal m c) (hAll m c) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, H5, HS0, HS1⟩
        isplitl [HS0 HS1 Hg]
        · isplitl [HS0 HS1]
          · isplitl [HS0]; · iexact HS0
            iexists _; isplitr
            · ipureintro; exact Filled.of_all m c _
            iexact HS1
          iexact Hg
        isplitl [Ho]; · iexact Ho
        isplitl [H0]; · iexact H0
        isplitl [H1]; · iexact H1
        isplitl [H2]; · iexact H2
        isplitl [H3]; · iexact H3
        isplitl [H4]; · iexact H4
        iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch buffers' named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have := N49; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of the program terminates; every array of the pipeline ends at what the library computes
    from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.Spec.lean ====
import Idealize.ShloMosaic.PureOps.Ideal
import Idealize.ShloMosaic.Lib.ValueIdx

noncomputable section

/-! # The layer as one function of the five arrays, at the ideal values

`out = act (adj · (adj · (seq · Wᵀ)) + bias)` with `act v = v` where `v ≥ 0` and `a · v` elsewhere, every product a
plain sum over the extended reals. Both programs compute the three products in this same nesting, so no law of
arithmetic is needed to join them: each side is read, index by index, as exactly these sums. -/

namespace Cert.Spec

open Idealize.ShloMosaic Idealize.ShloMosaic.ValueIdx

abbrev Feat : Shape := ⟨2, ![10000, 128]⟩
abbrev Adj : Shape := ⟨2, ![10000, 10000]⟩
abbrev Wt : Shape := ⟨2, ![128, 128]⟩
abbrev Bias : Shape := ⟨1, ![128]⟩
abbrev Sc : Shape := ⟨0, ![]⟩

/-- `(seq · Wᵀ)[l, j] = Σ_q seq[l, q] · W[j, q]`. -/
def feat (seq : Feat.Idx → Elt Ideal .f32) (W : Wt.Idx → Elt Ideal .f32) (l : Fin 10000) (j : Fin 128) : Elt Ideal .f32 :=
  ∑ q : Fin 128, seq (ix2 l q) * W (ix2 j q)

/-- The first hop: `Σ_l adj[k, l] · feat[l, j]`. -/
def hop1 (seq : Feat.Idx → Elt Ideal .f32) (adj : Adj.Idx → Elt Ideal .f32) (W : Wt.Idx → Elt Ideal .f32) (k : Fin 10000) (j : Fin 128) : Elt Ideal .f32 :=
  ∑ l : Fin 10000, adj (ix2 k l) * feat seq W l j

/-- The second hop: `Σ_k adj[i, k] · hop1[k, j]`. -/
def hop2 (seq : Feat.Idx → Elt Ideal .f32) (adj : Adj.Idx → Elt Ideal .f32) (W : Wt.Idx → Elt Ideal .f32) (i : Fin 10000) (j : Fin 128) : Elt Ideal .f32 :=
  ∑ k : Fin 10000, adj (ix2 i k) * hop1 seq adj W k j

/-- The activation on one element: `v` where `v ≥ 0`, else `a · v`. -/
def act (v a : Ideal .f32) : Ideal .f32 :=
  Scalar.select (FloatOps.cmpf (F := Ideal) .oge v (FloatOps.ofBits .f32 0x00000000#32)) v (FloatOps.mulf a v)

/-- The layer's result at row `i`, column `j`. -/
def outAt (seq : Feat.Idx → Elt Ideal .f32) (adj : Adj.Idx → Elt Ideal .f32) (W : Wt.Idx → Elt Ideal .f32)
    (bias : Bias.Idx → Elt Ideal .f32) (a : Sc.Idx → Elt Ideal .f32) (i : Fin 10000) (j : Fin 128) : Elt Ideal .f32 :=
  act (FloatOps.addf (hop2 seq adj W i j) (bias (ix1 j))) (a ix0)

/-- The layer's result as one array. -/
def G (seq : Feat.Idx → Elt Ideal .f32) (adj : Adj.Idx → Elt Ideal .f32) (W : Wt.Idx → Elt Ideal .f32)
    (bias : Bias.Idx → Elt Ideal .f32) (a : Sc.Idx → Elt Ideal .f32) : Feat.Idx → Elt Ideal .f32 := fun y =>
  outAt seq adj W bias a ⟨(y 0).val, idx2_lt0 y⟩ ⟨(y 1).val, idx2_lt1 y⟩

theorem G_ix2 (seq : Feat.Idx → Elt Ideal .f32) (adj : Adj.Idx → Elt Ideal .f32) (W : Wt.Idx → Elt Ideal .f32)
    (bias : Bias.Idx → Elt Ideal .f32) (a : Sc.Idx → Elt Ideal .f32) (i : Fin 10000) (j : Fin 128) :
    G seq adj W bias a (ix2 i j) = outAt seq adj W bias a i j := rfl

end Cert.Spec

end
-- ==== Proof.IdealValue.lean ====
import proofs.«133058_g18975165514648_fold_wed_m_529_27_alg».proof.Proof.IdealFrame
import proofs.«133058_g18975165514648_fold_wed_m_529_27_alg».proof.Proof.Spec
import Idealize.ShloMosaic.PureOps.Ideal.Laws
import Idealize.ShloMosaic.Lib.ValueIdx
import Idealize.ShloMosaic.Lib.ValueLayout
import Idealize.ShloMosaic.Lib.StableHlo.Run

set_option maxRecDepth 16384

noncomputable section

/-! # What the idealized kernel leaves in its output array

At the ideal values each of the three payloads is read at an index as a plain sum (the matrix unit into a zero
accumulator is the sum of products), each window's block is read where its index map puts it in the argument array, and
the pieces compose to the specification: `f` is `feat`, the first hop's rows are `hop1`, a point of the second hop
writes rows `400 (48 - t) ..` of `outAt`. The 25 points of the second hop cover the 25 stripes of the output. -/

namespace Cert.KernelIdeal.Body

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix0 ix1 ix2 eq_ix2)

variable (m : (ℓ : Loc nD τ sig) → Buf (Elt Ideal) ℓ) (ρ : Dev nD → PrngReg)

/-! ## The two contractions' operand indices -/

theorem dA_l0 (i : S10000x128.Idx) (q : dot_S10000x128_S128x128_S10000x128_1_1_0_0_n_n.contr.Idx) : (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem dA_l1 (i : S10000x128.Idx) (q : dot_S10000x128_S128x128_S10000x128_1_1_0_0_n_n.contr.Idx) : (dot_S10000x128_S128x128_S10000x128_1_1_0_0_n_n.lhsIdx i q 1).val = (q ⟨0, by decide⟩).val :=
  dot_S10000x128_S128x128_S10000x128_1_1_0_0_n_n.lhsIdx_val_of_single rfl i q
theorem dA_r1 (i : S10000x128.Idx) (q : dot_S10000x128_S128x128_S10000x128_1_1_0_0_n_n.contr.Idx) : (dot_S10000x128_S128x128_S10000x128_1_1_0_0_n_n.rhsIdx i q 1).val = (q ⟨0, by decide⟩).val :=
  dot_S10000x128_S128x128_S10000x128_1_1_0_0_n_n.rhsIdx_val_of_single rfl i q
theorem dA_r0 (i : S10000x128.Idx) (q : dot_S10000x128_S128x128_S10000x128_1_1_0_0_n_n.contr.Idx) : (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl

theorem dB_l0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem dB_l1 (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
theorem dB_r0 (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
theorem dB_r1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-! ## The payloads at an index -/

/-- `f`'s payload: both operands contracted along their second axis. -/
theorem pay1_apply (v9 : FVec Ideal S10000x128 .f32) (v10 : FVec Ideal S128x128 .f32) (l : Fin 10000) (j : Fin 128) :
    k0_pay1 (F := Ideal) v9 v10 (ix2 l j) = ∑ q : Fin 128, v9 (ix2 l q) * v10 (ix2 j q) := by
  unfold k0_pay1
  show shapeCast S10000x128 (matmul (F := Ideal) dot_S10000x128_S128x128_S10000x128_1_1_0_0_n_n none v9 v10 (constant (F := Ideal) S10000x128 .f32 0x00000000#32)) shapeCasts_S10000x128_S10000x128 (ix2 l j) = _
  rw [shapeCast_self]
  simp only [matmul]
  rw [Ideal.matmul_constant_zero_apply, ← Equiv.sum_comp (ValueIdx.contrEquiv1 dot_S10000x128_S128x128_S10000x128_1_1_0_0_n_n 128 rfl rfl).symm]
  refine Finset.sum_congr rfl fun q _ => ?_
  have hk := ValueIdx.contrEquiv1_symm_val dot_S10000x128_S128x128_S10000x128_1_1_0_0_n_n 128 rfl rfl q
  have el : dot_S10000x128_S128x128_S10000x128_1_1_0_0_n_n.lhsIdx (ix2 l j) ((ValueIdx.contrEquiv1 dot_S10000x128_S128x128_S10000x128_1_1_0_0_n_n 128 rfl rfl).symm q) = ix2 l q := funext fun a => Fin.ext (by
    match a with
    | ⟨0, _⟩ => exact dA_l0 _ _
    | ⟨1, _⟩ => exact (dA_l1 _ _).trans hk)
  have er : dot_S10000x128_S128x128_S10000x128_1_1_0_0_n_n.rhsIdx (ix2 l j) ((ValueIdx.contrEquiv1 dot_S10000x128_S128x128_S10000x128_1_1_0_0_n_n 128 rfl rfl).symm q) = ix2 j q := funext fun a => Fin.ext (by
    match a with
    | ⟨0, _⟩ => exact dA_r0 _ _
    | ⟨1, _⟩ => exact (dA_r1 _ _).trans hk)
  rw [el, er]

/-- The product of a 400-row block with a whole 10000-row array, at an index. -/
theorem dotB_apply (v9 : FVec Ideal S400x10000 .f32) (v10 : FVec Ideal S10000x128 .f32) (p : Fin 400) (j : Fin 128) :
    matmul (F := Ideal) dot_S400x10000_S10000x128_S400x128_1_0_0_1_n_n none v9 v10 (constant (F := Ideal) S400x128 .f32 0x00000000#32) (ix2 p j) = ∑ k : Fin 10000, v9 (ix2 p k) * v10 (ix2 k j) := by
  simp only [matmul]
  rw [Ideal.matmul_constant_zero_apply, ← Equiv.sum_comp (ValueIdx.contrEquiv1 dot_S400x10000_S10000x128_S400x128_1_0_0_1_n_n 10000 rfl rfl).symm]
  refine Finset.sum_congr rfl fun q _ => ?_
  have hk := ValueIdx.contrEquiv1_symm_val dot_S400x10000_S10000x128_S400x128_1_0_0_1_n_n 10000 rfl rfl q
  have el : dot_S400x10000_S10000x128_S400x128_1_0_0_1_n_n.lhsIdx (ix2 p j) ((ValueIdx.contrEquiv1 dot_S400x10000_S10000x128_S400x128_1_0_0_1_n_n 10000 rfl rfl).symm q) = ix2 p q := funext fun a => Fin.ext (by
    match a with
    | ⟨0, _⟩ => exact dB_l0 _ _
    | ⟨1, _⟩ => exact (dB_l1 _ _).trans hk)
  have er : dot_S400x10000_S10000x128_S400x128_1_0_0_1_n_n.rhsIdx (ix2 p j) ((ValueIdx.contrEquiv1 dot_S400x10000_S10000x128_S400x128_1_0_0_1_n_n 10000 rfl rfl).symm q) = ix2 q j := funext fun a => Fin.ext (by
    match a with
    | ⟨0, _⟩ => exact (dB_r0 _ _).trans hk
    | ⟨1, _⟩ => exact dB_r1 _ _)
  rw [el, er]

/-- The slab's payload. -/
theorem pay2_apply (v9 : FVec Ideal S400x10000 .f32) (v10 : FVec Ideal S10000x128 .f32) (p : Fin 400) (j : Fin 128) :
    k0_pay2 (F := Ideal) v9 v10 (ix2 p j) = ∑ k : Fin 10000, v9 (ix2 p k) * v10 (ix2 k j) := by
  unfold k0_pay2
  show shapeCast S400x128 (matmul (F := Ideal) dot_S400x10000_S10000x128_S400x128_1_0_0_1_n_n none v9 v10 (constant (F := Ideal) S400x128 .f32 0x00000000#32)) shapeCasts_S400x128_S400x128 (ix2 p j) = _
  rw [shapeCast_self, dotB_apply]

/-- The output block's payload: the product plus the bias row's entry, through the activation with the slope. -/
theorem pay3_apply (v9 : FVec Ideal S400x10000 .f32) (v10 : FVec Ideal S10000x128 .f32) (v12 : FVec Ideal S1x128 .f32) (v18 : FVec Ideal S1x1 .f32)
    (p : Fin 400) (j : Fin 128) :
    k0_pay3 (F := Ideal) v9 v10 v12 v18 (ix2 p j)
      = Cert.Spec.act (FloatOps.addf (∑ k : Fin 10000, v9 (ix2 p k) * v10 (ix2 k j)) (v12 (ix2 (0 : Fin 1) j))) (v18 (ix2 (0 : Fin 1) (0 : Fin 1))) := by
  unfold k0_pay3
  show Scalar.select (FloatOps.cmpf (F := Ideal) .oge (FloatOps.addf (matmul (F := Ideal) dot_S400x10000_S10000x128_S400x128_1_0_0_1_n_n none v9 v10 (constant (F := Ideal) S400x128 .f32 0x00000000#32) (ix2 p j))
        (broadcastTo S400x128 (shapeCast S1x128 v12 shapeCasts_S1x128_S1x128) broadcasts_S1x128_S400x128 (ix2 p j))) (Scalar.ofBits (F := Ideal) .f32 0x00000000#32))
      (FloatOps.addf (matmul (F := Ideal) dot_S400x10000_S10000x128_S400x128_1_0_0_1_n_n none v9 v10 (constant (F := Ideal) S400x128 .f32 0x00000000#32) (ix2 p j))
        (broadcastTo S400x128 (shapeCast S1x128 v12 shapeCasts_S1x128_S1x128) broadcasts_S1x128_S400x128 (ix2 p j)))
      (FloatOps.mulf (extractAt ![0, 0] v18 inpos_S1x1_p0_0) (FloatOps.addf (matmul (F := Ideal) dot_S400x10000_S10000x128_S400x128_1_0_0_1_n_n none v9 v10 (constant (F := Ideal) S400x128 .f32 0x00000000#32) (ix2 p j))
        (broadcastTo S400x128 (shapeCast S1x128 v12 shapeCasts_S1x128_S1x128) broadcasts_S1x128_S400x128 (ix2 p j)))) = _
  rw [dotB_apply, shapeCast_self,
    broadcastTo_apply v12 broadcasts_S1x128_S400x128 (ix2 p j) (ix2 (0 : Fin 1) j) (fun a => by
      match a with
      | ⟨0, _⟩ => show 0 = if (1 : Nat) = 1 then 0 else _; rw [if_pos rfl]
      | ⟨1, _⟩ => show j.val = if (128 : Nat) = 1 then 0 else j.val; rw [if_neg (by decide)])]
  have ex : extractAt ![0, 0] v18 inpos_S1x1_p0_0 = v18 (ix2 (0 : Fin 1) (0 : Fin 1)) := by
    unfold extractAt
    exact congrArg v18 (funext fun a => Fin.ext (by match a with | ⟨0, _⟩ => rfl | ⟨1, _⟩ => rfl))
  rw [ex]
  rfl

/-! ## The windows' blocks, read in the argument arrays -/

theorem read_seq (c : Dev nD) (l : Fin 10000) (q : Fin 128) :
    iblk m c 1 t0 (ix2 l q) = (V m c main_arg0 : S10000x128.Idx → Elt Ideal .f32) (ix2 l q) := by
  show V m c main_arg0 (((cfg0.win 1).blk t0).view.emb (ix2 l q)) = _
  refine congrArg _ (funext fun a => Fin.ext ?_)
  obtain ⟨e0, e1⟩ := block1 (t0 : Fin cfg0.N)
  match a with
  | ⟨0, _⟩ => show win0_1.index t0 (0 : Fin 2) * 10000 + 1 * l.val = l.val; rw [e0]; omega
  | ⟨1, _⟩ => show win0_1.index t0 (1 : Fin 2) * 128 + 1 * q.val = q.val; rw [e1]; omega

theorem read_w (c : Dev nD) (j : Fin 128) (q : Fin 128) :
    iblk m c 2 t0 (ix2 j q) = (V m c main_arg2 : S128x128.Idx → Elt Ideal .f32) (ix2 j q) := by
  show V m c main_arg2 (((cfg0.win 2).blk t0).view.emb (ix2 j q)) = _
  refine congrArg _ (funext fun a => Fin.ext ?_)
  obtain ⟨e0, e1⟩ := block2 (t0 : Fin cfg0.N)
  match a with
  | ⟨0, _⟩ => show win0_2.index t0 (0 : Fin 2) * 128 + 1 * j.val = j.val; rw [e0]; omega
  | ⟨1, _⟩ => show win0_2.index t0 (1 : Fin 2) * 128 + 1 * q.val = q.val; rw [e1]; omega

/-- Row `p` of a point's adjacency block is row `400 s + p` of the adjacency, `s` the point's stripe. -/
theorem read_adj (c : Dev nD) (t : Fin cfg0.N) (p : Fin 400) (l : Fin 10000) (r : Fin 10000)
    (hr : r.val = win0_0.index t (0 : Fin 2) * 400 + p.val) :
    iblk m c 0 t (ix2 p l) = (V m c main_arg1 : S10000x10000.Idx → Elt Ideal .f32) (ix2 r l) := by
  show V m c main_arg1 (((cfg0.win 0).blk t).view.emb (ix2 p l)) = _
  refine congrArg _ (funext fun a => Fin.ext ?_)
  obtain ⟨e0, e1⟩ := stripe0 t
  match a with
  | ⟨0, _⟩ => show win0_0.index t (0 : Fin 2) * 400 + 1 * p.val = r.val; rw [hr]; omega
  | ⟨1, _⟩ => show win0_0.index t (1 : Fin 2) * 10000 + 1 * l.val = l.val; rw [e1]; omega

/-- The bias row as the host reshape left it: entry `(0, j)` is `bias[j]`. -/
theorem read_bias (c : Dev nD) (t : Fin cfg0.N) (j : Fin 128) :
    iblk m c 3 t (ix2 (0 : Fin 1) j) = (m ((c : Thread nD τ).loc main_arg3) : S128.Idx → Elt Ideal .f32) (ix1 j) := by
  have e : (V m c main_v0 : S1x128.Idx → Elt Ideal .f32) = shapeCast S1x128 (m ((c : Thread nD τ).loc main_arg3) : S128.Idx → Elt Ideal .f32) shapeCasts_S128_S1x128 := by
    dsimp only [Gen.V, Gen.hostOps0]; after_results; rfl
  show V m c main_v0 (((cfg0.win 3).blk t).view.emb (ix2 (0 : Fin 1) j)) = _
  have hi : ((cfg0.win 3).blk t).view.emb (ix2 (0 : Fin 1) j) = (ix2 (0 : Fin 1) j : S1x128.Idx) := by
    funext a; apply Fin.ext
    obtain ⟨e0, e1⟩ := block3 t
    match a with
    | ⟨0, _⟩ => show win0_3.index t (0 : Fin 2) * 1 + 1 * 0 = 0; rw [e0]
    | ⟨1, _⟩ => show win0_3.index t (1 : Fin 2) * 128 + 1 * j.val = j.val; rw [e1]; omega
  rw [hi, e]
  exact (shapeCast_addUnit_apply ![128] _ shapeCasts_S128_S1x128 (ix2 (0 : Fin 1) j)).trans
    (congrArg _ (funext fun a => Fin.ext (by match a with | ⟨0, _⟩ => rfl)))

/-- The slope as the host reshape left it. -/
theorem read_slope (c : Dev nD) (t : Fin cfg0.N) :
    iblk m c 4 t (ix2 (0 : Fin 1) (0 : Fin 1)) = (m ((c : Thread nD τ).loc main_arg4) : S_.Idx → Elt Ideal .f32) ix0 := by
  have e : (V m c main_v1 : S1x1.Idx → Elt Ideal .f32) = shapeCast S1x1 (m ((c : Thread nD τ).loc main_arg4) : S_.Idx → Elt Ideal .f32) shapeCasts_S_S1x1 := by
    dsimp only [Gen.V, Gen.hostOps0]; after_results; rfl
  show V m c main_v1 (((cfg0.win 4).blk t).view.emb (ix2 (0 : Fin 1) (0 : Fin 1))) = _
  have hi : ((cfg0.win 4).blk t).view.emb (ix2 (0 : Fin 1) (0 : Fin 1)) = (ix2 (0 : Fin 1) (0 : Fin 1) : S1x1.Idx) := by
    funext a; apply Fin.ext
    obtain ⟨e0, e1⟩ := block4 t
    match a with
    | ⟨0, _⟩ => show win0_4.index t (0 : Fin 2) * 1 + 1 * 0 = 0; rw [e0]
    | ⟨1, _⟩ => show win0_4.index t (1 : Fin 2) * 1 + 1 * 0 = 0; rw [e1]
  rw [hi, e]
  exact shapeCast_apply _ shapeCasts_S_S1x1 (ix2 (0 : Fin 1) (0 : Fin 1)) ix0 rfl

/-! ## The three values are the specification's -/

abbrev A0 (c : Dev nD) : S10000x128.Idx → Elt Ideal .f32 := V m c main_arg0
abbrev A1 (c : Dev nD) : S10000x10000.Idx → Elt Ideal .f32 := V m c main_arg1
abbrev A2 (c : Dev nD) : S128x128.Idx → Elt Ideal .f32 := V m c main_arg2
abbrev A3 (c : Dev nD) : S128.Idx → Elt Ideal .f32 := m ((c : Thread nD τ).loc main_arg3)
abbrev A4 (c : Dev nD) : S_.Idx → Elt Ideal .f32 := m ((c : Thread nD τ).loc main_arg4)

theorem fVal_apply (c : Dev nD) (l : Fin 10000) (j : Fin 128) :
    fVal m c (ix2 l j) = Cert.Spec.feat (A0 m c) (A2 m c) l j := by
  unfold fVal Cert.Spec.feat
  rw [pay1_apply]
  exact Finset.sum_congr rfl fun q _ => by rw [read_seq, read_w]

theorem hAll_apply (c : Dev nD) (k : Fin 10000) (j : Fin 128) :
    hAll m c (ix2 k j) = Cert.Spec.hop1 (A0 m c) (A1 m c) (A2 m c) k j := by
  unfold hAll hBlk Cert.Spec.hop1
  have hk : k.val < 10000 := k.isLt
  rw [pay2_apply]
  refine Finset.sum_congr rfl fun l _ => ?_
  rw [fVal_apply]
  refine congrArg (· * _) ?_
  refine read_adj m c _ _ l k ?_
  obtain ⟨e0, -⟩ := stripe0 (⟨k.val / 400, by rw [N49]; omega⟩ : Fin cfg0.N)
  rw [e0, if_pos (by show k.val / 400 < 25; omega)]
  show k.val = k.val / 400 * 400 + k.val % 400
  omega

/-- A point of the second hop leaves rows `400 (48 - t) ..` of the layer's result in its output block. -/
theorem outBlk_apply (c : Dev nD) (t : Fin cfg0.N) (ht : 24 ≤ t.val) (p : Fin 400) (j : Fin 128) (r : Fin 10000)
    (hr : r.val = (48 - t.val) * 400 + p.val) :
    outBlk m c t (ix2 p j) = Cert.Spec.outAt (A0 m c) (A1 m c) (A2 m c) (A3 m c) (A4 m c) r j := by
  unfold outBlk Cert.Spec.outAt Cert.Spec.hop2
  rw [pay3_apply, read_bias, read_slope]
  refine congrArg (fun s => Cert.Spec.act (FloatOps.addf s _) _) ?_
  refine Finset.sum_congr rfl fun k _ => ?_
  rw [hAll_apply]
  refine congrArg (· * _) ?_
  refine read_adj m c t p k r ?_
  obtain ⟨e0, -⟩ := stripe0 t
  have hN : t.val < 49 := lt_of_lt_of_eq t.isLt N49
  rw [e0, hr]
  split <;> omega

/-! ## From blocks to the array -/

/-- The layer's result as the output array's contents. -/
def GBuf (c : Dev nD) : S10000x128.Idx → Elt Ideal .f32 := Cert.Spec.G (A0 m c) (A1 m c) (A2 m c) (A3 m c) (A4 m c)

theorem flushed_eq (c : Dev nD) (t : Fin cfg0.N) (ht : 24 ≤ t.val) :
    (dats m 0 c).flushed 5 t = ((cfg0.win 5).blk t).view.read (Elt Ideal) (GBuf m c) := by
  show (cfg0.win 5).cut (grid0.coords t) ((dats m 0 c).after 5 t) = _
  rw [after5]
  funext y
  obtain ⟨p, j, rfl⟩ : ∃ (p : Fin 400) (j : Fin 128), y = ix2 p j := ⟨y 0, y 1, eq_ix2 y⟩
  have hN : t.val < 49 := lt_of_lt_of_eq t.isLt N49
  obtain ⟨e0, e1⟩ := stripe5 t ht
  show outBlk m c t (ix2 p j) = GBuf m c (((cfg0.win 5).blk t).view.emb (ix2 p j))
  have hi : ((cfg0.win 5).blk t).view.emb (ix2 p j) = (ix2 (⟨(48 - t.val) * 400 + p.val, by have := p.isLt; omega⟩ : Fin 10000) j : S10000x128.Idx) := by
    funext a; apply Fin.ext
    match a with
    | ⟨0, _⟩ => show win0_5.index t (0 : Fin 2) * 400 + 1 * p.val = (48 - t.val) * 400 + p.val; rw [e0]; omega
    | ⟨1, _⟩ => show win0_5.index t (1 : Fin 2) * 128 + 1 * j.val = j.val; rw [e1]; omega
  rw [hi]
  unfold GBuf
  rw [Cert.Spec.G_ix2]
  exact outBlk_apply m c t ht p j _ rfl

theorem mem_blk5 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v2).slice (win0_5.rect t)).set ↔ _
  rw [View.set_slice_whole, Rect.mem_set_unit]
  exact Iff.rfl

/-- Every row of the output is in the block of some point of the second hop. -/
theorem cover (i : S10000x128.Idx) : ∃ t : Fin cfg0.N, (cfg0.win 5).flush t = true ∧ i ∈ ((cfg0.win 5).blk t).view.set := by
  have hi0 : (i 0).val < 10000 := ValueIdx.idx2_lt0 i
  have hi1 : (i 1).val < 128 := ValueIdx.idx2_lt1 i
  obtain ⟨t, ht, q0, q1⟩ := stripe5_onto ⟨(i 0).val / 400, by omega⟩
  refine ⟨t, (flush5_iff t).mpr ht, ?_⟩
  rw [mem_blk5]
  intro a
  match a with
  | ⟨0, _⟩ => show win0_5.index t (0 : Fin 2) * 400 ≤ (i 0).val ∧ (i 0).val < win0_5.index t (0 : Fin 2) * 400 + 400; rw [q0]; show (i 0).val / 400 * 400 ≤ (i 0).val ∧ (i 0).val < (i 0).val / 400 * 400 + 400; omega
  | ⟨1, _⟩ => show win0_5.index t (1 : Fin 2) * 128 ≤ (i 1).val ∧ (i 1).val < win0_5.index t (1 : Fin 2) * 128 + 128; rw [q1]; omega

/-- The output array after the run is the layer's result. -/
theorem final (c : Dev nD) : (dats m 0 c).arrAt 5 cfg0.N = GBuf m c :=
  (dats m 0 c).arrAt_eq_of_cover 5 (GBuf m c) (fun t hf => flushed_eq m c t ((flush5_iff t).mp hf)) cover

/-- The idealized kernel's run with its result named: the layer's result of the argument arrays as launched. -/
theorem run : θ_run defs (onTc (τ := τ) (main (F := Ideal))) ⟨m, fun _ => 0, ρ⟩ (fun r => ∀ c : Dev nD,
      r.2.mem ((c.tc : Thread nD τ).loc main_v2) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans ((final m c).trans (by
        unfold GBuf A0 A1 A2 A3 A4; rw [V_main_arg0, V_main_arg1, V_main_arg2])),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Body

end
-- ==== Proof.RefValue.lean ====
import proofs.«133058_g18975165514648_fold_wed_m_529_27_alg».proof.Proof.Gen.ReferenceIdeal.Read
import proofs.«133058_g18975165514648_fold_wed_m_529_27_alg».proof.Proof.Spec

noncomputable section

/-! # The reference computes the specification

The reference's thirteen host operations read one at a time at an index (the generated stage lemmas): the transposed
weight under the first product turns its sum into `Σ_q seq[l, q] · W[j, q]`, the two products with the adjacency are the
two hops, the two broadcasts of the bias read `bias[j]`, the broadcast of the slope reads the scalar. -/

namespace Cert.ReferenceIdeal.RefValue

open Cert.ReferenceIdeal Cert.ReferenceIdeal.Gen Cert.ReferenceIdeal.Read Idealize.ShloMosaic Idealize.ShloMosaic.ValueIdx

theorem v1_eq (x0 : (⟨S10000x128, .f32⟩ : BufTy).Contents (Elt Ideal)) (x2 : (⟨S128x128, .f32⟩ : BufTy).Contents (Elt Ideal))
    (l : Fin 10000) (j : Fin 128) : val_main_v1 (F := Ideal) x0 x2 (ix2 l j) = Cert.Spec.feat x0 x2 l j := by
  rw [val_main_v1_apply]
  unfold Cert.Spec.feat
  refine Finset.sum_congr rfl fun q _ => ?_
  rw [val_main_v0_apply]
  have e1 : lidx_main_v1 (ix2 l j) q = ix2 l q := funext fun a => Fin.ext (by match a with | ⟨0, _⟩ => rfl | ⟨1, _⟩ => rfl)
  have e2 : idx_main_v0 (ridx_main_v1 (ix2 l j) q) = ix2 j q := funext fun a => Fin.ext (by match a with | ⟨0, _⟩ => rfl | ⟨1, _⟩ => rfl)
  rw [e1, e2]

theorem v2_eq (x0 : (⟨S10000x128, .f32⟩ : BufTy).Contents (Elt Ideal)) (x1 : (⟨S10000x10000, .f32⟩ : BufTy).Contents (Elt Ideal)) (x2 : (⟨S128x128, .f32⟩ : BufTy).Contents (Elt Ideal))
    (k : Fin 10000) (j : Fin 128) : val_main_v2 (F := Ideal) x0 x1 x2 (ix2 k j) = Cert.Spec.hop1 x0 x1 x2 k j := by
  rw [val_main_v2_apply]
  unfold Cert.Spec.hop1
  refine Finset.sum_congr rfl fun l _ => ?_
  have e1 : lidx_main_v2 (ix2 k j) l = ix2 k l := funext fun a => Fin.ext (by match a with | ⟨0, _⟩ => rfl | ⟨1, _⟩ => rfl)
  have e2 : ridx_main_v2 (ix2 k j) l = ix2 l j := funext fun a => Fin.ext (by match a with | ⟨0, _⟩ => rfl | ⟨1, _⟩ => rfl)
  rw [e1, e2, v1_eq]

theorem v3_eq (x0 : (⟨S10000x128, .f32⟩ : BufTy).Contents (Elt Ideal)) (x1 : (⟨S10000x10000, .f32⟩ : BufTy).Contents (Elt Ideal)) (x2 : (⟨S128x128, .f32⟩ : BufTy).Contents (Elt Ideal))
    (i : Fin 10000) (j : Fin 128) : val_main_v3 (F := Ideal) x0 x1 x2 (ix2 i j) = Cert.Spec.hop2 x0 x1 x2 i j := by
  rw [val_main_v3_apply]
  unfold Cert.Spec.hop2
  refine Finset.sum_congr rfl fun k _ => ?_
  have e1 : lidx_main_v3 (ix2 i j) k = ix2 i k := funext fun a => Fin.ext (by match a with | ⟨0, _⟩ => rfl | ⟨1, _⟩ => rfl)
  have e2 : ridx_main_v3 (ix2 i j) k = ix2 k j := funext fun a => Fin.ext (by match a with | ⟨0, _⟩ => rfl | ⟨1, _⟩ => rfl)
  rw [e1, e2, v2_eq]

/-- The reference's result array is the specification of its five arguments. -/
theorem result_eq (x0 : (⟨S10000x128, .f32⟩ : BufTy).Contents (Elt Ideal)) (x1 : (⟨S10000x10000, .f32⟩ : BufTy).Contents (Elt Ideal)) (x2 : (⟨S128x128, .f32⟩ : BufTy).Contents (Elt Ideal))
    (x3 : (⟨S128, .f32⟩ : BufTy).Contents (Elt Ideal)) (x4 : (⟨S_, .f32⟩ : BufTy).Contents (Elt Ideal)) :
    val_main_v11 (F := Ideal) x0 x1 x2 x3 x4 = Cert.Spec.G x0 x1 x2 x3 x4 := by
  funext y
  obtain ⟨i, j, rfl⟩ : ∃ (i : Fin 10000) (j : Fin 128), y = ix2 i j := ⟨y 0, y 1, eq_ix2 y⟩
  rw [Cert.Spec.G_ix2, val_main_v11_apply, val_main_v8_apply, val_main_v10_apply, val_main_v6_apply, val_main_v7_apply,
    val_main_cst_apply, val_main_v9_apply, val_main_v5_apply, val_main_v4_apply, v3_eq]
  have e1 : idx_main_v4 (idx_main_v5 (ix2 i j)) = ix1 j := funext fun a => Fin.ext (by match a with | ⟨0, _⟩ => rfl)
  have e2 : idx_main_v9 (ix2 i j) = ix0 := funext fun a => a.elim0
  rw [e1, e2]
  rfl

end Cert.ReferenceIdeal.RefValue

end
-- ==== Proof.lean ====
/- The certificate of a two-hop graph-convolution layer, `out = act (adj · (adj · (seq · Wᵀ)) + bias)`, computed by ONE
   pipelined kernel over a flat grid of 49 points against the plain reference.

   The kernel keeps two scratch arrays between points: `f = seq · Wᵀ`, stored at the first point, and the first hop
   `h = adj · f`, stored one 400-row slab per point over the first 25 points. From point 24 on it reads the whole of `h`
   and writes one 400-row stripe of the output per point, walking the stripes downwards. So the invariant between points
   says: the first scratch holds `f`, and the second holds `h` on its first `400 n` rows (what the other rows hold is not
   known and never needed, since the second hop starts only when all 25 slabs are in).

   * The three frames. The body is run symbolically once per combination of its three conditionals the grid meets
     (four), at any float instance; the run of the grid follows by the schedule's case analysis at each point. The
     word-level program and its idealization have the same text, so the same argument proves both frames. The reference
     is a straight line of host operations: its frame is its run with the result dropped.
   * `preserves` is trivial: the ideal pass rewrote nothing.
   * `algebraic`. At the ideal values each matrix product is a plain sum of products, so the kernel's output stripe at a
     point of the second hop and the reference's result are, index by index, the SAME nesting of three sums followed by
     the same bias addition and activation (`Cert.Spec.G`). No law of arithmetic joins them and the finiteness of the
     inputs is never used; what the proof does is index bookkeeping: which rows a slab or stripe holds, and that the 25
     stripes of the second hop cover the output. -/
import proofs.«133058_g18975165514648_fold_wed_m_529_27_alg».proof.Defs
import proofs.«133058_g18975165514648_fold_wed_m_529_27_alg».proof.Proof.Gen.Kernel
import proofs.«133058_g18975165514648_fold_wed_m_529_27_alg».proof.Proof.Gen.KernelIdeal
import proofs.«133058_g18975165514648_fold_wed_m_529_27_alg».proof.Proof.Gen.ReferenceIdeal
import proofs.«133058_g18975165514648_fold_wed_m_529_27_alg».proof.Proof.Gen.Pre_finite_inputs
import proofs.«133058_g18975165514648_fold_wed_m_529_27_alg».proof.Proof.BitsFrame
import proofs.«133058_g18975165514648_fold_wed_m_529_27_alg».proof.Proof.IdealValue
import proofs.«133058_g18975165514648_fold_wed_m_529_27_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with their result at the specification of their own argument arrays, which agree. -/
theorem algebraic : Cert.algebraic_KernelIdeal_ReferenceIdeal := by
  intro m ρ m' ρ' _ hagree
  refine ⟨_, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
